-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x32x512 : Shape := ⟨3, ![4096, 32, 512]⟩
abbrev S1536x512 : Shape := ⟨2, ![1536, 512]⟩
abbrev S512x512 : Shape := ⟨2, ![512, 512]⟩
abbrev S512 : Shape := ⟨1, ![512]⟩
abbrev S63x16 : Shape := ⟨2, ![63, 16]⟩
abbrev S_ : Shape := ⟨0, ![]⟩

class Facts : Prop where
  bcast_S_S4096x32x512 : S_.BroadcastsInDim S4096x32x512 (![] : Fin 0 → Fin S4096x32x512.rank)
  reducesTo_S4096x32x512_S_d0_1_2 : S4096x32x512.ReducesTo [0, 1, 2] S_
  h_S_ : 0 < S_.numel
  bcast_S_S1536x512 : S_.BroadcastsInDim S1536x512 (![] : Fin 0 → Fin S1536x512.rank)
  reducesTo_S1536x512_S_d0_1 : S1536x512.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S63x16 : S_.BroadcastsInDim S63x16 (![] : Fin 0 → Fin S63x16.rank)
  reducesTo_S63x16_S_d0_1 : S63x16.ReducesTo [0, 1] S_

variable [Facts]

def fn_part1 {F : FTy → Type} [FloatOps F] (main_arg4 : FVec F S63x16 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S63x16 .f32 := Host.absf main_arg4
  let main_cst_6 : FVec F S_ .f32 := constant S_ .f32 0x7F800000#32
  let main_v20 : FVec F S63x16 .f32 := broadcastInDim S63x16 ![] bcast_S_S63x16 main_cst_6
  let main_v21 : IVec S63x16 1 := cmpf .olt main_v19 main_v20
  let main_c_7 : IVec S_ 1 := constantI S_ 1 1#1
  let main_v22 : IVec S_ 1 := (fun x v => Host.reduce IntOp.andi x v reducesTo_S63x16_S_d0_1 h_S_) main_v21 main_c_7
  let main_v23 : IVec S_ 1 := andi main_v18 main_v22
  main_v23

def fn {F : FTy → Type} [FloatOps F] (main_arg0 : FVec F S4096x32x512 .f32) (main_arg1 : FVec F S1536x512 .f32) (main_arg2 : FVec F S512x512 .f32) (main_arg3 : FVec F S512 .f32) (main_arg4 : FVec F S63x16 .f32) : IVec S_ 1 :=
  let main_v0 : FVec F S4096x32x512 .f32 := Host.absf main_arg0
  let main_cst : FVec F S_ .f32 := constant S_ .f32 0x7F800000#32
  let main_v1 : FVec F S4096x32x512 .f32 := broadcastInDim S4096x32x512 ![] bcast_S_S4096x32x512 main_cst
  let main_v2 : IVec S4096x32x512 1 := cmpf .olt main_v0 main_v1
  let main_c : IVec S_ 1 := constantI S_ 1 1#1
  let main_v3 : IVec S_ 1 := (fun x v => Host.reduce IntOp.andi x v reducesTo_S4096x32x512_S_d0_1_2 h_S_) main_v2 main_c
  let main_v4 : FVec F S1536x512 .f32 := Host.absf main_arg1
  let main_cst_0 : FVec F S_ .f32 := constant S_ .f32 0x7F800000#32
  let main_v5 : FVec F S1536x512 .f32 := broadcastInDim S1536x512 ![] bcast_S_S1536x512 main_cst_0
  let main_v6 : IVec S1536x512 1 := cmpf .olt main_v4 main_v5
  let main_c_1 : IVec S_ 1 := constantI S_ 1 1#1
  let main_v7 : IVec S_ 1 := (fun x v => Host.reduce IntOp.andi x v reducesTo_S1536x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_v13 main_v16
-- ==== Kernel.lean ====
abbrev S4096x32x512 : Shape := ⟨3, ![4096, 32, 512]⟩
abbrev S1536x512 : Shape := ⟨2, ![1536, 512]⟩
abbrev S512x512 : Shape := ⟨2, ![512, 512]⟩
abbrev S512 : Shape := ⟨1, ![512]⟩
abbrev S63x16 : Shape := ⟨2, ![63, 16]⟩
abbrev S32 : Shape := ⟨1, ![32]⟩
abbrev S32x1 : Shape := ⟨2, ![32, 1]⟩
abbrev S1x32 : Shape := ⟨2, ![1, 32]⟩
abbrev S32x32 : Shape := ⟨2, ![32, 32]⟩
abbrev S_ : Shape := ⟨0, ![]⟩
abbrev S32x32x1 : Shape := ⟨3, ![32, 32, 1]⟩
abbrev S32x32x16 : Shape := ⟨3, ![32, 32, 16]⟩
abbrev S16x32x32 : Shape := ⟨3, ![16, 32, 32]⟩
abbrev S512x1536 : Shape := ⟨2, ![512, 1536]⟩
abbrev S1x512 : Shape := ⟨2, ![1, 512]⟩
abbrev S32x32x512 : Shape := ⟨3, ![32, 32, 512]⟩
abbrev S1024x512 : Shape := ⟨2, ![1024, 512]⟩
abbrev S1024x1536 : Shape := ⟨2, ![1024, 1536]⟩
abbrev S32x32x1536 : Shape := ⟨3, ![32, 32, 1536]⟩
abbrev S32x32x32 : Shape := ⟨3, ![32, 32, 32]⟩
abbrev S1x32x32 : Shape := ⟨3, ![1, 32, 32]⟩

abbrev nBuf : Space → Nat
  | .hbm => 30
  | .vmem => 8
  | .smem => 0
  | _ => 0

abbrev bufTy : (tb : Table) → Fin (tcTables nBuf tb) → BufTy
  | .hbm, ⟨0, _⟩ => ⟨S4096x32x512, .f32⟩
  | .hbm, ⟨1, _⟩ => ⟨S1536x512, .f32⟩
  | .hbm, ⟨2, _⟩ => ⟨S512x512, .f32⟩
  | .hbm, ⟨3, _⟩ => ⟨S512, .f32⟩
  | .hbm, ⟨4, _⟩ => ⟨S63x16, .f32⟩
  | .hbm, ⟨5, _⟩ => ⟨S32, .i32⟩
  | .hbm, ⟨6, _⟩ => ⟨S32x1, .i32⟩
  | .hbm, ⟨7, _⟩ => ⟨S1x32, .i32⟩
  | .hbm, ⟨8, _⟩ => ⟨S32x32, .i32⟩
  | .hbm, ⟨9, _⟩ => ⟨S32x32, .i32⟩
  | .hbm, ⟨10, _⟩ => ⟨S32x32, .i32⟩
  | .hbm, ⟨11, _⟩ => ⟨S_, .i32⟩
  | .hbm, ⟨12, _⟩ => ⟨S32x32, .i32⟩
  | .hbm, ⟨13, _⟩ => ⟨S32x32, .i32⟩
  | .hbm, ⟨14, _⟩ => ⟨S_, .i32⟩
  | .hbm, ⟨15, _⟩ => ⟨S32x32, .i32⟩
  | .hbm, ⟨16, _⟩ => ⟨S32x32, .i1⟩
  | .hbm, ⟨17, _⟩ => ⟨S_, .i32⟩
  | .hbm, ⟨18, _⟩ => ⟨S32x32, .i32⟩
  | .hbm, ⟨19, _⟩ => ⟨S32x32, .i32⟩
  | .hbm, ⟨20, _⟩ => ⟨S32x32, .i32⟩
  | .hbm, ⟨21, _⟩ => ⟨S32x32x1, .i32⟩
  | .hbm, ⟨22, _⟩ => ⟨S32x32x16, .f32⟩
  | .hbm, ⟨23, _⟩ => ⟨S16x32x32, .f32⟩
  | .hbm, ⟨24, _⟩ => ⟨S512x1536, .f32⟩
  | .hbm, ⟨25, _⟩ => ⟨S512x1536, .bf16⟩
  | .hbm, ⟨26, _⟩ => ⟨S512x512, .f32⟩
  | .hbm, ⟨27, _⟩ => ⟨S512x512, .bf16⟩
  | .hbm, ⟨28, _⟩ => ⟨S1x512, .f32⟩
  | .hbm, ⟨29, _⟩ => ⟨S4096x32x512, .f32⟩
  | .local _ .vmem, ⟨0, _⟩ => ⟨S32x32x512, .f32⟩
  | .local _ .vmem, ⟨1, _⟩ => ⟨S32x32x512, .f32⟩
  | .local _ .vmem, ⟨2, _⟩ => ⟨S512x1536, .bf16⟩
  | .local _ .vmem, ⟨3, _⟩ => ⟨S512x512, .bf16⟩
  | .local _ .vmem, ⟨4, _⟩ => ⟨S1x512, .f32⟩
  | .local _ .vmem, ⟨5, _⟩ => ⟨S16x32x32, .f32⟩
  | .local _ .vmem, ⟨6, _⟩ => ⟨S32x32x512, .f32⟩
  | .local _ .vmem, ⟨7, _⟩ => ⟨S32x32x512, .f32⟩
  | _, _ => ⟨S4096x32x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x32x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S32x32x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S32_S32x1_0 : S32.BroadcastsInDim S32x1 (![0] : Fin 1 → Fin S32x1.rank)
  bcast_S32_S1x32_1 : S32.BroadcastsInDim S1x32 (![1] : Fin 1 → Fin S1x32.rank)
  bcast_S32x1_S32x32_0_1 : S32x1.BroadcastsInDim S32x32 (![0, 1] : Fin 2 → Fin S32x32.rank)
  bcast_S1x32_S32x32_0_1 : S1x32.BroadcastsInDim S32x32 (![0, 1] : Fin 2 → Fin S32x32.rank)
  bcast_S_S32x32 : S_.BroadcastsInDim S32x32 (![] : Fin 0 → Fin S32x32.rank)
  bcast_S32x32_S32x32x1_0_1 : S32x32.BroadcastsInDim S32x32x1 (![0, 1] : Fin 2 → Fin S32x32x1.rank)
  transposes_S32x32x16_S16x32x32_2_0_1 : S32x32x16.Transposes [2, 0, 1] S16x32x32
  transposes_S1536x512_S512x1536_1_0 : S1536x512.Transposes [1, 0] S512x1536
  bitsLt_bf16_f32 : FTy.bits .bf16 < FTy.bits .f32
  transposes_S512x512_S512x512_1_0 : S512x512.Transposes [1, 0] S512x512
  shapeCasts_S512_S1x512 : S512.ShapeCasts S1x512
  inb_S32x32x512_S32x32x512_0_0_0 : ∀ a, (![0, 0, 0] : Fin 3 → Nat) a + S32x32x512.size a ≤ S32x32x512.size a
  h_S32x32x512 : 0 < S32x32x512.numel
  shapeCasts_S32x32x512_S1024x512 : S32x32x512.ShapeCasts S1024x512
  inb_S512x1536_S512x1536_0_0 : ∀ a, (![0, 0] : Fin 2 → Nat) a + S512x1536.size a ≤ S512x1536.size a
  h_S512x1536 : 0 < S512x1536.numel
  shapeCasts_S512x1536_S512x1536 : S512x1536.ShapeCasts S512x1536
  shapeCasts_S1024x1536_S32x32x1536 : S1024x1536.ShapeCasts S32x32x1536
  slices_S32x32x1536_o0_0_0_S32x32x512 : S32x32x1536.Slices ![0, 0, 0] S32x32x512
  slices_S32x32x1536_o0_0_512_S32x32x512 : S32x32x1536.Slices ![0, 0, 512] S32x32x512
  slices_S32x32x1536_o0_0_1024_S32x32x512 : S32x32x1536.Slices ![0, 0, 1024] S32x32x512
  slices_S32x32x512_o0_0_0_S32x32x32 : S32x32x512.Slices ![0, 0, 0] S32x32x32
  reduces_S32x32x32_S32x32 : S32x32x32.Reduces [2] S32x32
  shapeCasts_S32x32_S32x32x1 : S32x32.ShapeCasts S32x32x1
  broadcasts_S32x32x1_S32x32x32 : S32x32x1.Broadcasts S32x32x32
  inb_S16x32x32_S1x32x32_0_0_0 : ∀ a, (![0, 0, 0] : Fin 3 → Nat) a + S1x32x32.size a ≤ S16x32x32.size a
  h_S1x32x32 : 0 < S1x32x32.numel
  shapeCasts_S1x32x32_S32x32 : S1x32x32.ShapeCasts S32x32
  shapeCasts_S32x32_S1x32x32 : S32x32.ShapeCasts S1x32x32
  broadcasts_S1x32x32_S32x32x32 : S1x32x32.Broadcasts S32x32x32
  slices_S32x32x512_o0_0_32_S32x32x32 : S32x32x512.Slices ![0, 0, 32] S32x32x32
  inb_S16x32x32_S1x32x32_1_0_0 : ∀ a, (![1, 0, 0] : Fin 3 → Nat) a + S1x32x32.size a ≤ S16x32x32.size a
  slices_S32x32x512_o0_0_64_S32x32x32 : S32x32x512.Slices ![0, 0, 64] S32x32x32
  inb_S16x32x32_S1x32x32_2_0_0 : ∀ a, (![2, 0, 0] : Fin 3 → Nat) a + S1x32x32.size a ≤ S16x32x32.size a
  slices_S32x32x512_o0_0_96_S32x32x32 : S32x32x512.Slices ![0, 0, 96] S32x32x32
  inb_S16x32x32_S1x32x32_3_0_0 : ∀ a, (![3, 0, 0] : Fin 3 → Nat) a + S1x32x32.size a ≤ S16x32x32.size a
  slices_S32x32x512_o0_0_128_S32x32x32 : S32x32x512.Slices ![0, 0, 128] S32x32x32
  inb_S16x32x32_S1x32x32_4_0_0 : ∀ a, (![4, 0, 0] : Fin 3 → Nat) a + S1x32x32.size a ≤ S16x32x32.size a
  slices_S32x32x512_o0_0_160_S32x32x32 : S32x32x512.Slices ![0, 0, 160] S32x32x32
  inb_S16x32x32_S1x32x32_5_0_0 : ∀ a, (![5, 0, 0] : Fin 3 → Nat) a + S1x32x32.size a ≤ S16x32x32.size a
  slices_S32x32x512_o0_0_192_S32x32x32 : S32x32x512.Slices ![0, 0, 192] S32x32x32
  inb_S16x32x32_S1x32x32_6_0_0 : ∀ a, (![6, 0, 0] : Fin 3 → Nat) a + S1x32x32.size a ≤ S16x32x32.size a
  slices_S32x32x512_o0_0_224_S32x32x32 : S32x32x512.Slices ![0, 0, 224] S32x32x32
  inb_S16x32x32_S1x32x32_7_0_0 : ∀ a, (![7, 0, 0] : Fin 3 → Nat) a + S1x32x32.size a ≤ S16x32x32.size a
  slices_S32x32x512_o0_0_256_S32x32x32 : S32x32x512.Slices ![0, 0, 256] S32x32x32
  inb_S16x32x32_S1x32x32_8_0_0 : ∀ a, (![8, 0, 0] : Fin 3 → Nat) a + S1x32x32.size a ≤ S16x32x32.size a
  slices_S32x32x512_o0_0_288_S32x32x32 : S32x32x512.Slices ![0, 0, 288] S32x32x32
  inb_S16x32x32_S1x32x32_9_0_0 : ∀ a, (![9, 0, 0] : Fin 3 → Nat) a + S1x32x32.size a ≤ S16x32x32.size a
  slices_S32x32x512_o0_0_320_S32x32x32 : S32x32x512.Slices ![0, 0, 320] S32x32x32
  inb_S16x32x32_S1x32x32_10_0_0 : ∀ a, (![10, 0, 0] : Fin 3 → Nat) a + S1x32x32.size a ≤ S16x32x32.size a
  slices_S32x32x512_o0_0_352_S32x32x32 : S32x32x512.Slices ![0, 0, 352] S32x32x32
  inb_S16x32x32_S1x32x32_11_0_0 : ∀ a, (![11, 0, 0] : Fin 3 → Nat) a + S1x32x32.size a ≤ S16x32x32.size a
  slices_S32x32x512_o0_0_384_S32x32x32 : S32x32x512.Slices ![0, 0, 384] S32x32x32
  inb_S16x32x32_S1x32x32_12_0_0 : ∀ a, (![12, 0, 0] : Fin 3 → Nat) a + S1x32x32.size a ≤ S16x32x32.size a
  slices_S32x32x512_o0_0_416_S32x32x32 : S32x32x512.Slices ![0, 0, 416] S32x32x32
  inb_S16x32x32_S1x32x32_13_0_0 : ∀ a, (![13, 0, 0] : Fin 3 → Nat) a + S1x32x32.size a ≤ S16x32x32.size a
  slices_S32x32x512_o0_0_448_S32x32x32 : S32x32x512.Slices ![0, 0, 448] S32x32x32
  inb_S16x32x32_S1x32x32_14_0_0 : ∀ a, (![14, 0, 0] : Fin 3 → Nat) a + S1x32x32.size a ≤ S16x32x32.size a
  slices_S32x32x512_o0_0_480_S32x32x32 : S32x32x512.Slices ![0, 0, 480] S32x32x32
  inb_S16x32x32_S1x32x32_15_0_0 : ∀ a, (![15, 0, 0] : Fin 3 → Nat) a + S1x32x32.size a ≤ S16x32x32.size a
  concatenates_S32x32x32_S32x32x32_S32x32x32_S32x32x32_S32x32x32_S32x32x32_S32x32x32_S32x32x32_S32x32x32_S32x32x32_S32x32x32_S32x32x32_S32x32x32_S32x32x32_S32x32x32_S32x32x32_S32x32x512_d2 : Shape.Concatenates [S32x32x32, S32x32x32, S32x32x32, S32x32x32, S32x32x32, S32x32x32, S32x32x32, S32x32x32, S32x32x32, S32x32x32, S32x32x32, S32x32x32, S32x32x32, S32x32x32, S32x32x32, S32x32x32] S32x32x512 2
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  shapeCasts_S1024x512_S32x32x512 : S1024x512.ShapeCasts S32x32x512
  gather_S63x16_S32x32x1_S32x32x16_2_0_n_n_0_2_116_wf : GatherDims.WF S63x16 S32x32x1 S32x32x16 [2] [0] [] [0] [] 2 ![1, 16]
  dot_S1024x512_S512x1536_S1024x1536_1_0_0_1_n_n_wf : DotDims.WF S1024x512 S512x1536 S1024x1536 [1] [0] [0] [1] [] []
  dot_S32x32x32_S32x32x32_S32x32x32_2_2_1_1_0_0_wf : DotDims.WF S32x32x32 S32x32x32 S32x32x32 [2] [2] [1] [1] [0] [0]
  dot_S32x32x32_S32x32x32_S32x32x32_2_1_1_2_0_0_wf : DotDims.WF S32x32x32 S32x32x32 S32x32x32 [2] [1] [1] [2] [0] [0]
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x32x512.size a ≤ S4096x32x512.size a
  hwx0_0 : ∀ i : grid0.Coords, EltTy.bits .f32 = 32 ∨ (Rect.block (s := S4096x32x512) S32x32x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1536.size a ≤ S512x1536.size a
  hwx0_1 : ∀ i : grid0.Coords, EltTy.bits .bf16 = 32 ∨ (Rect.block (s := S512x1536) S512x1536.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x32x32.size a ≤ S16x32x32.size a
  hwx0_4 : ∀ i : grid0.Coords, EltTy.bits .f32 = 32 ∨ (Rect.block (s := S16x32x32) S16x32x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S32x32x512.size a ≤ S4096x32x512.size a
  hwx0_5 : ∀ i : grid0.Coords, EltTy.bits .f32 = 32 ∨ (Rect.block (s := S4096x32x512) S32x32x512.size (cc0_transform_5 i) (hinb0_5 i)).WholeWords (EltTy.packing .f32)

variable [Facts₀]

def gather_S63x16_S32x32x1_S32x32x16_2_0_n_n_0_2_116 : GatherDims S63x16 S32x32x1 S32x32x16 where
  offsetDims := [2]
  collapsedSliceDims := [0]
  operandBatchingDims := []
  startIndicesBatchingDims := []
  startIndexMap := [0]
  indexVectorDim := 2
  sliceSizes := ![1, 16]
  wf := gather_S63x16_S32x32x1_S32x32x16_2_0_n_n_0_2_116_wf
def dot_S1024x512_S512x1536_S1024x1536_1_0_0_1_n_n : DotDims S1024x512 S512x1536 S1024x1536 where
  lhsContracting := [1]
  rhsContracting := [0]
  lhsNonContracting := [0]
  rhsNonContracting := [1]
  lhsBatch := []
  rhsBatch := []
  wf := dot_S1024x512_S512x1536_S1024x1536_1_0_0_1_n_n_wf
def dot_S32x32x32_S32x32x32_S32x32x32_2_2_1_1_0_0 : DotDims S32x32x32 S32x32x32 S32x32x32 where
  lhsContracting := [2]
  rhsContracting := [2]
  lhsNonContracting := [1]
  rhsNonContracting := [1]
  lhsBatch := [0]
  rhsBatch := [0]
  wf := dot_S32x32x32_S32x32x32_S32x32x32_2_2_1_1_0_0_wf
def dot_S32x32x32_S32x32x32_S32x32x32_2_1_1_2_0_0 : DotDims S32x32x32 S32x32x32 S32x32x32 where
  lhsContracting := [2]
  rhsContracting := [1]
  lhsNonContracting := [1]
  rhsNonContracting := [2]
  lhsBatch := [0]
  rhsBatch := [0]
  wf := dot_S32x32x32_S32x32x32_S32x32x32_2_1_1_2_0_0_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_arg0) S32x32x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S512x1536.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S16x32x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S32x32x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x32x512 : Shape := ⟨3, ![4096, 32, 512]⟩
abbrev S1536x512 : Shape := ⟨2, ![1536, 512]⟩
abbrev S512x512 : Shape := ⟨2, ![512, 512]⟩
abbrev S512 : Shape := ⟨1, ![512]⟩
abbrev S63x16 : Shape := ⟨2, ![63, 16]⟩
abbrev S4096x32x1536 : Shape := ⟨3, ![4096, 32, 1536]⟩
abbrev S4096x32x3x16x32 : Shape := ⟨5, ![4096, 32, 3, 16, 32]⟩
abbrev S3x4096x16x32x32 : Shape := ⟨5, ![3, 4096, 16, 32, 32]⟩
abbrev S1x4096x16x32x32 : Shape := ⟨5, ![1, 4096, 16, 32, 32]⟩
abbrev S4096x16x32x32 : Shape := ⟨4, ![4096, 16, 32, 32]⟩
abbrev S_ : Shape := ⟨0, ![]⟩
abbrev S4096x16x32 : Shape := ⟨3, ![4096, 16, 32]⟩
abbrev S4096x16x32x1 : Shape := ⟨4, ![4096, 16, 32, 1]⟩
abbrev S32 : Shape := ⟨1, ![32]⟩
abbrev S32x1 : Shape := ⟨2, ![32, 1]⟩
abbrev S1x32 : Shape := ⟨2, ![1, 32]⟩
abbrev S32x32 : Shape := ⟨2, ![32, 32]⟩
abbrev S32x32x1 : Shape := ⟨3, ![32, 32, 1]⟩
abbrev S32x32x16 : Shape := ⟨3, ![32, 32, 16]⟩
abbrev S16x32x32 : Shape := ⟨3, ![16, 32, 32]⟩
abbrev S1x16x32x32 : Shape := ⟨4, ![1, 16, 32, 32]⟩
abbrev S4096x32x16x32 : Shape := ⟨4, ![4096, 32, 16, 32]⟩
abbrev S1x1x512 : Shape := ⟨3, ![1, 1, 512]⟩

abbrev nBuf : Space → Nat
  | .hbm => 75
  | .vmem => 0
  | .smem => 0
  | _ => 0

abbrev bufTy : (tb : Table) → Fin (tcTables nBuf tb) → BufTy
  | .hbm, ⟨0, _⟩ => ⟨S4096x32x512, .f32⟩
  | .hbm, ⟨1, _⟩ => ⟨S1536x512, .f32⟩
  | .hbm, ⟨2, _⟩ => ⟨S512x512, .f32⟩
  | .hbm, ⟨3, _⟩ => ⟨S512, .f32⟩
  | .hbm, ⟨4, _⟩ => ⟨S63x16, .f32⟩
  | .hbm, ⟨5, _⟩ => ⟨S4096x32x1536, .f32⟩
  | .hbm, ⟨6, _⟩ => ⟨S4096x32x3x16x32, .f32⟩
  | .hbm, ⟨7, _⟩ => ⟨S3x4096x16x32x32, .f32⟩
  | .hbm, ⟨8, _⟩ => ⟨S1x4096x16x32x32, .f32⟩
  | .hbm, ⟨9, _⟩ => ⟨S4096x16x32x32, .f32⟩
  | .hbm, ⟨10, _⟩ => ⟨S1x4096x16x32x32, .f32⟩
  | .hbm, ⟨11, _⟩ => ⟨S4096x16x32x32, .f32⟩
  | .hbm, ⟨12, _⟩ => ⟨S1x4096x16x32x32, .f32⟩
  | .hbm, ⟨13, _⟩ => ⟨S4096x16x32x32, .f32⟩
  | .hbm, ⟨14, _⟩ => ⟨S4096x16x32x32, .f32⟩
  | .hbm, ⟨15, _⟩ => ⟨S_, .f32⟩
  | .hbm, ⟨16, _⟩ => ⟨S4096x16x32x32, .f32⟩
  | .hbm, ⟨17, _⟩ => ⟨S4096x16x32x32, .f32⟩
  | .hbm, ⟨18, _⟩ => ⟨S_, .f32⟩
  | .hbm, ⟨19, _⟩ => ⟨S4096x16x32, .f32⟩
  | .hbm, ⟨20, _⟩ => ⟨S_, .f32⟩
  | .hbm, ⟨21, _⟩ => ⟨S4096x16x32, .f32⟩
  | .hbm, ⟨22, _⟩ => ⟨S4096x16x32, .f32⟩
  | .hbm, ⟨23, _⟩ => ⟨S4096x16x32x1, .f32⟩
  | .hbm, ⟨24, _⟩ => ⟨S4096x16x32x32, .f32⟩
  | .hbm, ⟨25, _⟩ => ⟨S4096x16x32x32, .f32⟩
  | .hbm, ⟨26, _⟩ => ⟨S4096x16x32x32, .f32⟩
  | .hbm, ⟨27, _⟩ => ⟨S_, .f32⟩
  | .hbm, ⟨28, _⟩ => ⟨S4096x16x32, .f32⟩
  | .hbm, ⟨29, _⟩ => ⟨S4096x16x32x1, .f32⟩
  | .hbm, ⟨30, _⟩ => ⟨S4096x16x32x32, .f32⟩
  | .hbm, ⟨31, _⟩ => ⟨S4096x16x32x32, .f32⟩
  | .hbm, ⟨32, _⟩ => ⟨S32, .i32⟩
  | .hbm, ⟨33, _⟩ => ⟨S32x1, .i32⟩
  | .hbm, ⟨34, _⟩ => ⟨S1x32, .i32⟩
  | .hbm, ⟨35, _⟩ => ⟨S32x32, .i32⟩
  | .hbm, ⟨36, _⟩ => ⟨S32x32, .i32⟩
  | .hbm, ⟨37, _⟩ => ⟨S32x32, .i32⟩
  | .hbm, ⟨38, _⟩ => ⟨S_, .i32⟩
  | .hbm, ⟨39, _⟩ => ⟨S32x32, .i32⟩
  | .hbm, ⟨40, _⟩ => ⟨S32x32, .i32⟩
  | .hbm, ⟨41, _⟩ => ⟨S_, .i32⟩
  | .hbm, ⟨42, _⟩ => ⟨S32x32, .i32⟩
  | .hbm, ⟨43, _⟩ => ⟨S32x32, .i1⟩
  | .hbm, ⟨44, _⟩ => ⟨S_, .i32⟩
  | .hbm, ⟨45, _⟩ => ⟨S32x32, .i32⟩
  | .hbm, ⟨46, _⟩ => ⟨S32x32, .i32⟩
  | .hbm, ⟨47, _⟩ => ⟨S32x32, .i32⟩
  | .hbm, ⟨48, _⟩ => ⟨S32x32x1, .i32⟩
  | .hbm, ⟨49, _⟩ => ⟨S32x32x16, .f32⟩
  | .hbm, ⟨50, _⟩ => ⟨S16x32x32, .f32⟩
  | .hbm, ⟨51, _⟩ => ⟨S1x16x32x32, .f32⟩
  | .hbm, ⟨52, _⟩ => ⟨S4096x16x32x32, .f32⟩
  | .hbm, ⟨53, _⟩ => ⟨S4096x16x32x32, .f32⟩
  | .hbm, ⟨54, _⟩ => ⟨S_, .f32⟩
  | .hbm, ⟨55, _⟩ => ⟨S4096x16x32, .f32⟩
  | .hbm, ⟨56, _⟩ => ⟨S_, .f32⟩
  | .hbm, ⟨57, _⟩ => ⟨S4096x16x32, .f32⟩
  | .hbm, ⟨58, _⟩ => ⟨S4096x16x32, .f32⟩
  | .hbm, ⟨59, _⟩ => ⟨S4096x16x32x1, .f32⟩
  | .hbm, ⟨60, _⟩ => ⟨S4096x16x32x32, .f32⟩
  | .hbm, ⟨61, _⟩ => ⟨S4096x16x32x32, .f32⟩
  | .hbm, ⟨62, _⟩ => ⟨S4096x16x32x32, .f32⟩
  | .hbm, ⟨63, _⟩ => ⟨S_, .f32⟩
  | .hbm, ⟨64, _⟩ => ⟨S4096x16x32, .f32⟩
  | .hbm, ⟨65, _⟩ => ⟨S4096x16x32x1, .f32⟩
  | .hbm, ⟨66, _⟩ => ⟨S4096x16x32x32, .f32⟩
  | .hbm, ⟨67, _⟩ => ⟨S4096x16x32x32, .f32⟩
  | .hbm, ⟨68, _⟩ => ⟨S4096x16x32x32, .f32⟩
  | .hbm, ⟨69, _⟩ => ⟨S4096x32x16x32, .f32⟩
  | .hbm, ⟨70, _⟩ => ⟨S4096x32x512, .f32⟩
  | .hbm, ⟨71, _⟩ => ⟨S4096x32x512, .f32⟩
  | .hbm, ⟨72, _⟩ => ⟨S1x1x512, .f32⟩
  | .hbm, ⟨73, _⟩ => ⟨S4096x32x512, .f32⟩
  | .hbm, ⟨74, _⟩ => ⟨S4096x32x512, .f32⟩
  | _, _ => ⟨S4096x32x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_c : Ref sig .tc := ⟨.hbm, 38, rfl⟩
abbrev main_v29 : Ref sig .tc := ⟨.hbm, 39, rfl⟩
abbrev main_v30 : Ref sig .tc := ⟨.hbm, 40, rfl⟩
abbrev main_c_3 : Ref sig .tc := ⟨.hbm, 41, rfl⟩
abbrev main_v31 : Ref sig .tc := ⟨.hbm, 42, rfl⟩
abbrev main_v32 : Ref sig .tc := ⟨.hbm, 43, rfl⟩
abbrev main_c_4 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_5 : Ref sig .tc := ⟨.hbm, 54, rfl⟩
abbrev main_v42 : Ref sig .tc := ⟨.hbm, 55, rfl⟩
abbrev main_cst_6 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_7 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩

abbrev nD : Nat := 1
abbrev τ : Topo := Topo.v7x

variable {F : FTy → Type} [FloatOps F]

class Facts₀ : Prop where
  shapeCasts_S4096x32x1536_S4096x32x3x16x32 : S4096x32x1536.ShapeCasts S4096x32x3x16x32
  transposes_S4096x32x3x16x32_S3x4096x16x32x32_2_0_3_1_4 : S4096x32x3x16x32.Transposes [2, 0, 3, 1, 4] S3x4096x16x32x32
  slices_S3x4096x16x32x32_S1x4096x16x32x32_0_0_0_0_0 : S3x4096x16x32x32.Slices ![0, 0, 0, 0, 0] S1x4096x16x32x32
  shapeCasts_S1x4096x16x32x32_S4096x16x32x32 : S1x4096x16x32x32.ShapeCasts S4096x16x32x32
  slices_S3x4096x16x32x32_S1x4096x16x32x32_1_0_0_0_0 : S3x4096x16x32x32.Slices ![1, 0, 0, 0, 0] S1x4096x16x32x32
  slices_S3x4096x16x32x32_S1x4096x16x32x32_2_0_0_0_0 : S3x4096x16x32x32.Slices ![2, 0, 0, 0, 0] S1x4096x16x32x32
  bcast_S_S4096x16x32x32 : S_.BroadcastsInDim S4096x16x32x32 (![] : Fin 0 → Fin S4096x16x32x32.rank)
  reducesTo_S4096x16x32x32_S4096x16x32_d3 : S4096x16x32x32.ReducesTo [3] S4096x16x32
  h_S_ : 0 < S_.numel
  bcast_S_S4096x16x32 : S_.BroadcastsInDim S4096x16x32 (![] : Fin 0 → Fin S4096x16x32.rank)
  bcast_S4096x16x32_S4096x16x32x1_0_1_2 : S4096x16x32.BroadcastsInDim S4096x16x32x1 (![0, 1, 2] : Fin 3 → Fin S4096x16x32x1.rank)
  bcast_S4096x16x32x1_S4096x16x32x32_0_1_2_3 : S4096x16x32x1.BroadcastsInDim S4096x16x32x32 (![0, 1, 2, 3] : Fin 4 → Fin S4096x16x32x32.rank)
  bcast_S32_S32x1_0 : S32.BroadcastsInDim S32x1 (![0] : Fin 1 → Fin S32x1.rank)
  bcast_S32_S1x32_1 : S32.BroadcastsInDim S1x32 (![1] : Fin 1 → Fin S1x32.rank)
  bcast_S32x1_S32x32_0_1 : S32x1.BroadcastsInDim S32x32 (![0, 1] : Fin 2 → Fin S32x32.rank)
  bcast_S1x32_S32x32_0_1 : S1x32.BroadcastsInDim S32x32 (![0, 1] : Fin 2 → Fin S32x32.rank)
  bcast_S_S32x32 : S_.BroadcastsInDim S32x32 (![] : Fin 0 → Fin S32x32.rank)
  bcast_S32x32_S32x32x1_0_1 : S32x32.BroadcastsInDim S32x32x1 (![0, 1] : Fin 2 → Fin S32x32x1.rank)
  transposes_S32x32x16_S16x32x32_2_0_1 : S32x32x16.Transposes [2, 0, 1] S16x32x32
  bcast_S16x32x32_S1x16x32x32_1_2_3 : S16x32x32.BroadcastsInDim S1x16x32x32 (![1, 2, 3] : Fin 3 → Fin S1x16x32x32.rank)
  bcast_S1x16x32x32_S4096x16x32x32_0_1_2_3 : S1x16x32x32.BroadcastsInDim S4096x16x32x32 (![0, 1, 2, 3] : Fin 4 → Fin S4096x16x32x32.rank)
  transposes_S4096x16x32x32_S4096x32x16x32_0_2_1_3 : S4096x16x32x32.Transposes [0, 2, 1, 3] S4096x32x16x32
  shapeCasts_S4096x32x16x32_S4096x32x512 : S4096x32x16x32.ShapeCasts S4096x32x512
  bcast_S512_S1x1x512_2 : S512.BroadcastsInDim S1x1x512 (![2] : Fin 1 → Fin S1x1x512.rank)
  bcast_S1x1x512_S4096x32x512_0_1_2 : S1x1x512.BroadcastsInDim S4096x32x512 (![0, 1, 2] : Fin 3 → Fin S4096x32x512.rank)
  dot_S4096x32x512_S1536x512_S4096x32x1536_2_1_01_0_n_n_wf : DotDims.WF S4096x32x512 S1536x512 S4096x32x1536 [2] [1] [0, 1] [0] [] []
  dot_S4096x16x32x32_S4096x16x32x32_S4096x16x32x32_3_3_2_2_01_01_wf : DotDims.WF S4096x16x32x32 S4096x16x32x32 S4096x16x32x32 [3] [3] [2] [2] [0, 1] [0, 1]
  gather_S63x16_S32x32x1_S32x32x16_2_0_n_n_0_2_116_wf : GatherDims.WF S63x16 S32x32x1 S32x32x16 [2] [0] [] [0] [] 2 ![1, 16]
  dot_S4096x16x32x32_S4096x16x32x32_S4096x16x32x32_3_2_2_3_01_01_wf : DotDims.WF S4096x16x32x32 S4096x16x32x32 S4096x16x32x32 [3] [2] [2] [3] [0, 1] [0, 1]
  dot_S4096x32x512_S512x512_S4096x32x512_2_1_01_0_n_n_wf : DotDims.WF S4096x32x512 S512x512 S4096x32x512 [2] [1] [0, 1] [0] [] []

variable [Facts₀]

def dot_S4096x32x512_S1536x512_S4096x32x1536_2_1_01_0_n_n : DotDims S4096x32x512 S1536x512 S4096x32x1536 where
  lhsContracting := [2]
  rhsContracting := [1]
  lhsNonContracting := [0, 1]
  rhsNonContracting := [0]
  lhsBatch := []
  rhsBatch := []
  wf := dot_S4096x32x512_S1536x512_S4096x32x1536_2_1_01_0_n_n_wf
def dot_S4096x16x32x32_S4096x16x32x32_S4096x16x32x32_3_3_2_2_01_01 : DotDims S4096x16x32x32 S4096x16x32x32 S4096x16x32x32 where
  lhsContracting := [3]
  rhsContracting := [3]
  lhsNonContracting := [2]
  rhsNonContracting := [2]
  lhsBatch := [0, 1]
  rhsBatch := [0, 1]
  wf := dot_S4096x16x32x32_S4096x16x32x32_S4096x16x32x32_3_3_2_2_01_01_wf
def gather_S63x16_S32x32x1_S32x32x16_2_0_n_n_0_2_116 : GatherDims S63x16 S32x32x1 S32x32x16 where
  offsetDims := [2]
  collapsedSliceDims := [0]
  operandBatchingDims := []
  startIndicesBatchingDims := []
  startIndexMap := [0]
  indexVectorDim := 2
  sliceSizes := ![1, 16]
  wf := gather_S63x16_S32x32x1_S32x32x16_2_0_n_n_0_2_116_wf
def dot_S4096x16x32x32_S4096x16x32x32_S4096x16x32x32_3_2_2_3_01_01 : DotDims S4096x16x32x32 S4096x16x32x32 S4096x16x32x32 where
  lhsContracting := [3]
  rhsContracting := [2]
  lhsNonContracting := [2]
  rhsNonContracting := [3]
  lhsBatch := [0, 1]
  rhsBatch := [0, 1]
  wf := dot_S4096x16x32x32_S4096x16x32x32_S4096x16x32x32_3_2_2_3_01_01_wf
def dot_S4096x32x512_S512x512_S4096x32x512_2_1_01_0_n_n : DotDims S4096x32x512 S512x512 S4096x32x512 where
  lhsContracting := [2]
  rhsContracting := [1]
  lhsNonContracting := [0, 1]
  rhsNonContracting := [0]
  lhsBatch := []
  rhsBatch := []
  wf := dot_S4096x32x512_S512x512_S4096x32x512_2_1_01_0_n_n_wf

class Facts : Prop extends Facts₀ where

variable [Facts]
-- ==== Proof.Spec.lean ====
/-
  The function both programs compute, index by index, on the extended reals.

  A batch of 4096 windows of 32 tokens with 512 features is sent through ONE attention layer of 16 heads of width 32:
  each token's 1536 projected features are its queries, keys and values (three bands of 512 columns, head `h` owning
  columns 32·h … 32·h+31 of each band); within a window and a head the scaled query–key products of a token against
  the 32 tokens are put through a softmax, a bias depending only on the head and the two positions is added, and the
  sum is put through a softmax AGAIN; the result weights the values; the 16 heads' outputs, side by side, are projected
  back to 512 features and a bias row is added.

  Every sum is a finite sum on the extended reals and every softmax is written the one way both programs write it
  (the row's largest entry taken from -inf and compared once more with -inf, subtracted, exponentiated, divided by the
  sum of the exponentials), so no step below needs an entry to be finite. The two float words that occur (the scale
  and -inf) are kept as the words: both programs carry the same ones.
-/
import Idealize.ShloMosaic.PureOps.Ideal.Laws
import Idealize.ShloMosaic.Lib.ValueIdx

noncomputable section

open scoped BigOperators

namespace Cert.Swa

open Idealize.ShloMosaic Idealize.ShloMosaic.ValueIdx

/-- The word both programs splat for -inf, as an extended real. -/
abbrev negInf : EReal := Ideal.ofBits .f32 0xFF800000#32

/-- The word both programs scale the query–key products by (the f32 nearest 32^(-1/2)), as an extended real. -/
abbrev scale : EReal := Ideal.ofBits .f32 0x3E3504F3#32

/-- The largest entry of a row of 32, folded from -inf and then compared with -inf once more. -/
def rowTop (f : Fin 32 → EReal) : EReal :=
  max negInf ((Finset.univ : Finset (Fin 32)).fold max negInf f)

/-- The softmax of a row of 32 at position `y`. -/
def soft (f : Fin 32 → EReal) (y : Fin 32) : EReal :=
  Ideal.div (Ideal.exp (f y - rowTop f)) (∑ k : Fin 32, Ideal.exp (f k - rowTop f))

/-- Column `512·s + 32·h + d` of the 1536 projected features: band `s` (0 queries, 1 keys, 2 values), head `h`,
    feature `d` of the head. -/
def col (s : Fin 3) (h : Fin 16) (d : Fin 32) : Fin 1536 :=
  ⟨512 * s.val + 32 * h.val + d.val, by have := s.isLt; have := h.isLt; have := d.isLt; omega⟩

/-- The head that owns feature `c` of the 512, and the feature's place inside the head. -/
def headOf (c : Fin 512) : Fin 16 := ⟨c.val / 32, by have := c.isLt; omega⟩
def featOf (c : Fin 512) : Fin 32 := ⟨c.val % 32, Nat.mod_lt _ (by decide)⟩

section
variable (x : (⟨3, ![4096, 32, 512]⟩ : Shape).Idx → EReal) (w : (⟨2, ![1536, 512]⟩ : Shape).Idx → EReal)
  (ow : (⟨2, ![512, 512]⟩ : Shape).Idx → EReal) (ob : (⟨1, ![512]⟩ : Shape).Idx → EReal)
  (bias : (⟨3, ![16, 32, 32]⟩ : Shape).Idx → EReal)

/-- Projected feature `o` of token `n` of window `b`. -/
def proj (b : Fin 4096) (n : Fin 32) (o : Fin 1536) : EReal :=
  ∑ c : Fin 512, x (ix3 b n c) * w (ix2 o c)

/-- The scaled product of token `i`'s query with token `j`'s key in head `h` of window `b`. -/
def score (b : Fin 4096) (h : Fin 16) (i j : Fin 32) : EReal :=
  (∑ d : Fin 32, proj x w b i (col 0 h d) * proj x w b j (col 1 h d)) * scale

/-- The first softmax, over the tokens `j`. -/
def att1 (b : Fin 4096) (h : Fin 16) (i j : Fin 32) : EReal :=
  soft (fun j' => score x w b h i j') j

/-- The second softmax, of the first one plus the positional bias. -/
def att2 (b : Fin 4096) (h : Fin 16) (i j : Fin 32) : EReal :=
  soft (fun j' => att1 x w b h i j' + bias (ix3 h i j')) j

/-- Feature `d` of head `h`'s output at token `i`: the values weighted by the second softmax. -/
def headOut (b : Fin 4096) (h : Fin 16) (i : Fin 32) (d : Fin 32) : EReal :=
  ∑ j : Fin 32, att2 x w bias b h i j * proj x w b j (col 2 h d)

/-- The layer's output: the heads side by side, projected, plus the bias row. -/
def G : (⟨3, ![4096, 32, 512]⟩ : Shape).Idx → EReal := fun i =>
  (∑ c : Fin 512, headOut x w bias (i 0) (headOf c) (i 1) (featOf c) * ow (ix2 (i 2) c)) + ob (ix1 (i 2))

end

end Cert.Swa

end
-- ==== Proof.KHead.lean ====
/-
  One attention head of the kernel's body, with the head's number as a parameter.

  The body treats its 16 heads one after the other, each by the same operations on a different band of 32 columns
  of the projected queries, keys and values (three [32, 32, 512] arrays: window, token, feature) and on its own
  [1, 32, 32] block of the positional bias. Here those operations are written once, for head `n`, at any reading
  of the floats; each is then read at an index at the exact (extended-real) reading.
-/
import proofs.«161077_j13520557047932_1_alg».proof.Proof.Gen.KernelIdeal.Skeleton
import proofs.«161077_j13520557047932_1_alg».proof.Proof.Spec
import Idealize.ShloMosaic.Lib.Pipeline.Value
import Idealize.ShloMosaic.Lib.ValueIdx
import Idealize.ShloMosaic.PureOps.Ideal.Laws

noncomputable section

open scoped BigOperators

namespace Cert.Swa.K

open Idealize.ShloMosaic Idealize.ShloMosaic.ValueIdx Idealize.SL.Sem
open Cert.KernelIdeal Cert.KernelIdeal.Gen

variable {F : FTy → Type} [FloatOps F]

/-- Head `n`'s band of 32 columns starts at column 32·n. -/
abbrev offN (n : Fin 16) : Fin 3 → Nat := ![0, 0, 32 * n.val]

theorem slicesN (n : Fin 16) : S32x32x512.Slices (offN n) S32x32x32 :=
  ⟨rfl, fun a => by
    have := n.isLt
    match a with
    | ⟨0, _⟩ => show 0 + 32 ≤ 32; omega
    | ⟨1, _⟩ => show 0 + 32 ≤ 32; omega
    | ⟨2, _⟩ => show 32 * n.val + 32 ≤ 512; omega⟩

/-- Head `n`'s band of a [32, 32, 512] array. -/
def band (n : Fin 16) (v : FVec F S32x32x512 .f32) : FVec F S32x32x32 .bf16 :=
  truncf .bf16 (extractStridedSlice S32x32x32 (offN n) v (slicesN n)) bitsLt_bf16_f32

/-- The scaled query–key products of head `n`: per window, token `i` against token `j`. -/
def scoresK (n : Fin 16) (q k : FVec F S32x32x512 .f32) : FVec F S32x32x32 .f32 :=
  mulf (matmul dot_S32x32x32_S32x32x32_S32x32x32_2_2_1_1_0_0 none (band n q) (band n k) (constant S32x32x32 .f32 0x00000000#32))
    (broadcast S32x32x32 (Scalar.ofBits .f32 0x3E3504F3#32))

/-- A row's largest entry, along the last axis, from -inf and compared with -inf once more, spread back over the row. -/
def topK (s : FVec F S32x32x32 .f32) : FVec F S32x32x32 .f32 :=
  broadcastTo S32x32x32
    (shapeCast S32x32x1
      (maximumf (broadcast S32x32 (Scalar.ofBits .f32 0xFF800000#32))
        (multiReduction .maximumf [2] S32x32 s 0xFF800000#32 reduces_S32x32x32_S32x32 (.inl rfl) rfl))
      shapeCasts_S32x32_S32x32x1)
    broadcasts_S32x32x1_S32x32x32

/-- The exponentials of a row's entries less its largest one. -/
def expK (s : FVec F S32x32x32 .f32) : FVec F S32x32x32 .f32 := exp (subf s (topK s))

/-- The softmax along the last axis. -/
def softK (s : FVec F S32x32x32 .f32) : FVec F S32x32x32 .f32 :=
  divf (expK s)
    (broadcastTo S32x32x32
      (shapeCast S32x32x1 (multiReduction .add [2] S32x32 (expK s) 0x00000000#32 reduces_S32x32x32_S32x32 (.inl rfl) rfl)
        shapeCasts_S32x32_S32x32x1)
      broadcasts_S32x32x1_S32x32x32)

/-- A head's [1, 32, 32] bias block spread over the 32 windows. -/
def biasK (b : Vec F S1x32x32 .f32) : FVec F S32x32x32 .f32 :=
  broadcastTo S32x32x32
    (shapeCast S1x32x32 (shapeCast S32x32 b shapeCasts_S1x32x32_S32x32) shapeCasts_S32x32_S1x32x32)
    broadcasts_S1x32x32_S32x32x32

/-- Head `n`: softmax of the scores, plus the bias, softmax again, times the values. -/
def headK (n : Fin 16) (q k v : FVec F S32x32x512 .f32) (b : Vec F S1x32x32 .f32) : FVec F S32x32x32 .f32 :=
  matmul dot_S32x32x32_S32x32x32_S32x32x32_2_1_1_2_0_0 none
    (truncf .bf16 (softK (addf (softK (scoresK n q k)) (biasK b))) bitsLt_bf16_f32)
    (band n v) (constant S32x32x32 .f32 0x00000000#32)

/-- The body's second head, as printed, is head 1. -/
theorem pay9_eq (q k v : FVec F S32x32x512 .f32) (b : Vec F S1x32x32 .f32) :
    k0_pay9 q k v b = headK 1 q k v b := rfl

end Cert.Swa.K

end
-- ==== Proof.KHeads.lean ====
/-
  The body's 16 heads are one head, sixteen times.

  The body is printed with its heads written out one after the other, cut into pieces at places that have nothing to
  do with the heads; unfolded, each head's piece is the generic head of `KHead.lean` at the head's number, on the
  projected queries, keys and values and on the head's own [1, 32, 32] block of the bias array.
-/
import proofs.«161077_j13520557047932_1_alg».proof.Proof.Gen.KernelIdeal.Frame
import proofs.«161077_j13520557047932_1_alg».proof.Proof.KHead

noncomputable section

namespace Cert.Swa.K

open Idealize.ShloMosaic Idealize.ShloMosaic.ValueIdx Idealize.SL.Sem
open Cert.KernelIdeal Cert.KernelIdeal.Gen

variable {F : FTy → Type} [FloatOps F]

theorem inbN (n : Fin 16) : ∀ a, (![n.val, 0, 0] : Fin 3 → Nat) a + S1x32x32.size a ≤ S16x32x32.size a := fun a => by
  have := n.isLt
  match a with
  | ⟨0, _⟩ => show n.val + 1 ≤ 16; omega
  | ⟨1, _⟩ => show 0 + 32 ≤ 32; omega
  | ⟨2, _⟩ => show 0 + 32 ≤ 32; omega

/-- Head `n`'s [1, 32, 32] block of the bias array. -/
def biasBlk (x4 : Vec F S16x32x32 .f32) (n : Fin 16) : Vec F S1x32x32 .f32 :=
  View.ld x4 (Rect.unit (s := S16x32x32) ![n.val, 0, 0] S1x32x32.size (inbN n))

/-- Head `n` of the body, from the block of inputs `X0`, the projection weights `X1` and the bias array `x4`. -/
def heads (X0 : Vec F S32x32x512 .f32) (X1 : Vec F S512x1536 .bf16) (x4 : Vec F S16x32x32 .f32) (n : Fin 16) :
    FVec F S32x32x32 .f32 :=
  headK n (k0_pay3 X0 X1) (k0_pay4 X0 X1) (k0_pay5 X0 X1) (biasBlk x4 n)

/-- The body's head 0, as printed, is the generic head at 0. -/
theorem head0_eq (X0 : Vec F S32x32x512 .f32) (X1 : Vec F S512x1536 .bf16) (x4 : Vec F S16x32x32 .f32) :
    k0_pay8 (k0_pay6 X0 X1) (k0_pay7 X0 X1 (View.ld x4 r0_2)) = heads X0 X1 x4 ⟨0, by decide⟩ := rfl

/-- The body's head 1, as printed, is the generic head at 1. -/
theorem head1_eq (X0 : Vec F S32x32x512 .f32) (X1 : Vec F S512x1536 .bf16) (x4 : Vec F S16x32x32 .f32) :
    k0_pay9 (k0_pay3 X0 X1) (k0_pay4 X0 X1) (k0_pay5 X0 X1) (View.ld x4 r0_3) = heads X0 X1 x4 ⟨1, by decide⟩ := rfl

/-- The body's head 2, as printed, is the generic head at 2. -/
theorem head2_eq (X0 : Vec F S32x32x512 .f32) (X1 : Vec F S512x1536 .bf16) (x4 : Vec F S16x32x32 .f32) :
    k0_pay12 (k0_pay5 X0 X1) (k0_pay10 (k0_pay3 X0 X1)) (k0_pay11 (k0_pay4 X0 X1)) (View.ld x4 r0_4) = heads X0 X1 x4 ⟨2, by decide⟩ := rfl

/-- The body's head 3, as printed, is the generic head at 3. -/
theorem head3_eq (X0 : Vec F S32x32x512 .f32) (X1 : Vec F S512x1536 .bf16) (x4 : Vec F S16x32x32 .f32) :
    k0_pay16 (k0_pay13 (k0_pay5 X0 X1)) (k0_pay14 (k0_pay3 X0 X1) (k0_pay4 X0 X1)) (k0_pay15 (k0_pay3 X0 X1) (k0_pay4 X0 X1)) (View.ld x4 r0_5) = heads X0 X1 x4 ⟨3, by decide⟩ := rfl

/-- The body's head 4, as printed, is the generic head at 4. -/
theorem head4_eq (X0 : Vec F S32x32x512 .f32) (X1 : Vec F S512x1536 .bf16) (x4 : Vec F S16x32x32 .f32) :
    k0_pay20 (k0_pay17 (k0_pay5 X0 X1)) (k0_pay18 (k0_pay3 X0 X1) (k0_pay4 X0 X1)) (k0_pay19 (k0_pay3 X0 X1) (k0_pay4 X0 X1)) (View.ld x4 r0_6) = heads X0 X1 x4 ⟨4, by decide⟩ := rfl

/-- The body's head 5, as printed, is the generic head at 5. -/
theorem head5_eq (X0 : Vec F S32x32x512 .f32) (X1 : Vec F S512x1536 .bf16) (x4 : Vec F S16x32x32 .f32) :
    k0_pay23 (k0_pay21 (k0_pay5 X0 X1)) (k0_pay22 (k0_pay3 X0 X1) (k0_pay4 X0 X1) (View.ld x4 r0_7)) = heads X0 X1 x4 ⟨5, by decide⟩ := rfl

/-- The body's head 6, as printed, is the generic head at 6. -/
theorem head6_eq (X0 : Vec F S32x32x512 .f32) (X1 : Vec F S512x1536 .bf16) (x4 : Vec F S16x32x32 .f32) :
    k0_pay26 (k0_pay24 (k0_pay5 X0 X1)) (k0_pay25 (k0_pay3 X0 X1) (k0_pay4 X0 X1) (View.ld x4 r0_8)) = heads X0 X1 x4 ⟨6, by decide⟩ := rfl

/-- The body's head 7, as printed, is the generic head at 7. -/
theorem head7_eq (X0 : Vec F S32x32x512 .f32) (X1 : Vec F S512x1536 .bf16) (x4 : Vec F S16x32x32 .f32) :
    k0_pay27 (k0_pay3 X0 X1) (k0_pay4 X0 X1) (k0_pay5 X0 X1) (View.ld x4 r0_9) = heads X0 X1 x4 ⟨7, by decide⟩ := rfl

/-- The body's head 8, as printed, is the generic head at 8. -/
theorem head8_eq (X0 : Vec F S32x32x512 .f32) (X1 : Vec F S512x1536 .bf16) (x4 : Vec F S16x32x32 .f32) :
    k0_pay30 (k0_pay5 X0 X1) (k0_pay28 (k0_pay3 X0 X1)) (k0_pay29 (k0_pay4 X0 X1)) (View.ld x4 r0_10) = heads X0 X1 x4 ⟨8, by decide⟩ := rfl

/-- The body's head 9, as printed, is the generic head at 9. -/
theorem head9_eq (X0 : Vec F S32x32x512 .f32) (X1 : Vec F S512x1536 .bf16) (x4 : Vec F S16x32x32 .f32) :
    k0_pay34 (k0_pay31 (k0_pay5 X0 X1)) (k0_pay32 (k0_pay3 X0 X1) (k0_pay4 X0 X1)) (k0_pay33 (k0_pay3 X0 X1) (k0_pay4 X0 X1)) (View.ld x4 r0_11) = heads X0 X1 x4 ⟨9, by decide⟩ := rfl

/-- The body's head 10, as printed, is the generic head at 10. -/
theorem head10_eq (X0 : Vec F S32x32x512 .f32) (X1 : Vec F S512x1536 .bf16) (x4 : Vec F S16x32x32 .f32) :
    k0_pay38 (k0_pay35 (k0_pay5 X0 X1)) (k0_pay36 (k0_pay3 X0 X1) (k0_pay4 X0 X1)) (k0_pay37 (k0_pay3 X0 X1) (k0_pay4 X0 X1)) (View.ld x4 r0_12) = heads X0 X1 x4 ⟨10, by decide⟩ := rfl

/-- The body's head 11, as printed, is the generic head at 11. -/
theorem head11_eq (X0 : Vec F S32x32x512 .f32) (X1 : Vec F S512x1536 .bf16) (x4 : Vec F S16x32x32 .f32) :
    k0_pay41 (k0_pay39 (k0_pay5 X0 X1)) (k0_pay40 (k0_pay3 X0 X1) (k0_pay4 X0 X1) (View.ld x4 r0_13)) = heads X0 X1 x4 ⟨11, by decide⟩ := rfl

/-- The body's head 12, as printed, is the generic head at 12. -/
theorem head12_eq (X0 : Vec F S32x32x512 .f32) (X1 : Vec F S512x1536 .bf16) (x4 : Vec F S16x32x32 .f32) :
    k0_pay44 (k0_pay42 (k0_pay5 X0 X1)) (k0_pay43 (k0_pay3 X0 X1) (k0_pay4 X0 X1) (View.ld x4 r0_14)) = heads X0 X1 x4 ⟨12, by decide⟩ := rfl

/-- The body's head 13, as printed, is the generic head at 13. -/
theorem head13_eq (X0 : Vec F S32x32x512 .f32) (X1 : Vec F S512x1536 .bf16) (x4 : Vec F S16x32x32 .f32) :
    k0_pay45 (k0_pay3 X0 X1) (k0_pay4 X0 X1) (k0_pay5 X0 X1) (View.ld x4 r0_15) = heads X0 X1 x4 ⟨13, by decide⟩ := rfl

/-- The body's head 14, as printed, is the generic head at 14. -/
theorem head14_eq (X0 : Vec F S32x32x512 .f32) (X1 : Vec F S512x1536 .bf16) (x4 : Vec F S16x32x32 .f32) :
    k0_pay48 (k0_pay5 X0 X1) (k0_pay46 (k0_pay3 X0 X1)) (k0_pay47 (k0_pay4 X0 X1)) (View.ld x4 r0_16) = heads X0 X1 x4 ⟨14, by decide⟩ := rfl

/-- The body's head 15, as printed, is the generic head at 15. -/
theorem head15_eq (X0 : Vec F S32x32x512 .f32) (X1 : Vec F S512x1536 .bf16) (x4 : Vec F S16x32x32 .f32) :
    k0_pay52 (k0_pay49 (k0_pay5 X0 X1)) (k0_pay50 (k0_pay3 X0 X1) (k0_pay4 X0 X1)) (k0_pay51 (k0_pay3 X0 X1) (k0_pay4 X0 X1)) (View.ld x4 r0_17) = heads X0 X1 x4 ⟨15, by decide⟩ := rfl

end Cert.Swa.K

end
-- ==== Proof.KDots.lean ====
/-
  The kernel's four matrix products read at an index, at the exact reading: each entry is the finite sum, over the one
  contracted coordinate, of the products of the two operands' entries — with nothing of the accumulator left, which
  is the zero array every time.

  * the projection of the 1024 = 32·32 (window, token) rows by the [512, 1536] weights, and the output projection by
    the [512, 512] weights: entry (p, o) is the sum over the feature c of row p at c times column o at c;
  * per window b, queries against keys: entry (b, i, j) is the sum over the feature d of (b, i, d) times (b, j, d);
  * per window b, weights against values: entry (b, i, d) is the sum over the token j of (b, i, j) times (b, j, d).
-/
import proofs.«161077_j13520557047932_1_alg».proof.Proof.Gen.KernelIdeal
import Idealize.ShloMosaic.Lib.ValueIdx
import Idealize.ShloMosaic.PureOps.Ideal.Laws

noncomputable section

open scoped BigOperators

namespace Cert.Swa.K

open Idealize.ShloMosaic Idealize.ShloMosaic.ValueIdx Idealize.SL.Sem
open Cert.KernelIdeal Cert.KernelIdeal.Gen

abbrev DProj := dot_S1024x512_S512x1536_S1024x1536_1_0_0_1_n_n
abbrev DOut := dot_S1024x512_S512x512_S1024x512_1_0_0_1_n_n
abbrev DQK := dot_S32x32x32_S32x32x32_S32x32x32_2_2_1_1_0_0
abbrev DAV := dot_S32x32x32_S32x32x32_S32x32x32_2_1_1_2_0_0

theorem matmulQK_lhs_0 (i : S32x32x32.Idx) (q : DQK.contr.Idx) :
    (DQK.lhsIdx i q 0).val = (i 0).val := by
  unfold DotDims.lhsIdx
  rw [dif_pos (show (0 : Fin S32x32x32.rank) ∈ DQK.lhsBatch by decide)]
  rfl
theorem matmulQK_lhs_1 (i : S32x32x32.Idx) (q : DQK.contr.Idx) :
    (DQK.lhsIdx i q 1).val = (i 1).val := by
  unfold DotDims.lhsIdx
  rw [dif_neg (show ¬(1 : Fin S32x32x32.rank) ∈ DQK.lhsBatch by decide), dif_pos (show (1 : Fin S32x32x32.rank) ∈ DQK.lhsNonContracting by decide)]
  rfl
theorem matmulQK_lhs_2 (i : S32x32x32.Idx) (q : DQK.contr.Idx) :
    (DQK.lhsIdx i q 2).val = (q ⟨0, by decide⟩).val :=
  DQK.lhsIdx_val_of_single rfl i q
theorem matmulQK_rhs_0 (i : S32x32x32.Idx) (q : DQK.contr.Idx) :
    (DQK.rhsIdx i q 0).val = (i 0).val := by
  unfold DotDims.rhsIdx
  rw [dif_pos (show (0 : Fin S32x32x32.rank) ∈ DQK.rhsBatch by decide)]
  rfl
theorem matmulQK_rhs_1 (i : S32x32x32.Idx) (q : DQK.contr.Idx) :
    (DQK.rhsIdx i q 1).val = (i 2).val := by
  unfold DotDims.rhsIdx
  rw [dif_neg (show ¬(1 : Fin S32x32x32.rank) ∈ DQK.rhsBatch by decide), dif_pos (show (1 : Fin S32x32x32.rank) ∈ DQK.rhsNonContracting by decide)]
  rfl
theorem matmulQK_rhs_2 (i : S32x32x32.Idx) (q : DQK.contr.Idx) :
    (DQK.rhsIdx i q 2).val = (q ⟨0, by decide⟩).val :=
  DQK.rhsIdx_val_of_single rfl i q

/-- Queries against keys, per window: entry (b, i, j) sums (b, i, d)·(b, j, d) over the feature d. -/
theorem matmulQK_apply (l : FVec Ideal S32x32x32 .bf16) (r : FVec Ideal S32x32x32 .bf16) (b i j : Fin 32) :
    matmul DQK none l r (constant S32x32x32 .f32 0x00000000#32) (ix3 b i j) = ∑ k : Fin 32, l (ix3 b i k) * r (ix3 b j k) := by
  simp only [matmul]
  rw [Ideal.matmul_constant_zero_apply, ← Equiv.sum_comp (contrEquiv1 DQK 32 rfl rfl).symm]
  refine Finset.sum_congr rfl fun k _ => ?_
  have hk := contrEquiv1_symm_val DQK 32 rfl rfl k
  have el : DQK.lhsIdx (ix3 b i j) ((contrEquiv1 DQK 32 rfl rfl).symm k) = ix3 b i k := funext fun a => Fin.ext (by
    match a with
    | ⟨0, _⟩ => exact matmulQK_lhs_0 _ _
    | ⟨1, _⟩ => exact matmulQK_lhs_1 _ _
    | ⟨2, _⟩ => exact (matmulQK_lhs_2 _ _).trans hk)
  have er : DQK.rhsIdx (ix3 b i j) ((contrEquiv1 DQK 32 rfl rfl).symm k) = ix3 b j k := funext fun a => Fin.ext (by
    match a with
    | ⟨0, _⟩ => exact matmulQK_rhs_0 _ _
    | ⟨1, _⟩ => exact matmulQK_rhs_1 _ _
    | ⟨2, _⟩ => exact (matmulQK_rhs_2 _ _).trans hk)
  rw [el, er]

theorem matmulAV_lhs_0 (i : S32x32x32.Idx) (q : DAV.contr.Idx) :
    (DAV.lhsIdx i q 0).val = (i 0).val := by
  unfold DotDims.lhsIdx
  rw [dif_pos (show (0 : Fin S32x32x32.rank) ∈ DAV.lhsBatch by decide)]
  rfl
theorem matmulAV_lhs_1 (i : S32x32x32.Idx) (q : DAV.contr.Idx) :
    (DAV.lhsIdx i q 1).val = (i 1).val := by
  unfold DotDims.lhsIdx
  rw [dif_neg (show ¬(1 : Fin S32x32x32.rank) ∈ DAV.lhsBatch by decide), dif_pos (show (1 : Fin S32x32x32.rank) ∈ DAV.lhsNonContracting by decide)]
  rfl
theorem matmulAV_lhs_2 (i : S32x32x32.Idx) (q : DAV.contr.Idx) :
    (DAV.lhsIdx i q 2).val = (q ⟨0, by decide⟩).val :=
  DAV.lhsIdx_val_of_single rfl i q
theorem matmulAV_rhs_0 (i : S32x32x32.Idx) (q : DAV.contr.Idx) :
    (DAV.rhsIdx i q 0).val = (i 0).val := by
  unfold DotDims.rhsIdx
  rw [dif_pos (show (0 : Fin S32x32x32.rank) ∈ DAV.rhsBatch by decide)]
  rfl
theorem matmulAV_rhs_1 (i : S32x32x32.Idx) (q : DAV.contr.Idx) :
    (DAV.rhsIdx i q 1).val = (q ⟨0, by decide⟩).val :=
  DAV.rhsIdx_val_of_single rfl i q
theorem matmulAV_rhs_2 (i : S32x32x32.Idx) (q : DAV.contr.Idx) :
    (DAV.rhsIdx i q 2).val = (i 2).val := by
  unfold DotDims.rhsIdx
  rw [dif_neg (show ¬(2 : Fin S32x32x32.rank) ∈ DAV.rhsBatch by decide), dif_pos (show (2 : Fin S32x32x32.rank) ∈ DAV.rhsNonContracting by decide)]
  rfl

/-- Weights against values, per window: entry (b, i, d) sums (b, i, j)·(b, j, d) over the token j. -/
theorem matmulAV_apply (l : FVec Ideal S32x32x32 .bf16) (r : FVec Ideal S32x32x32 .bf16) (b i d : Fin 32) :
    matmul DAV none l r (constant S32x32x32 .f32 0x00000000#32) (ix3 b i d) = ∑ k : Fin 32, l (ix3 b i k) * r (ix3 b k d) := by
  simp only [matmul]
  rw [Ideal.matmul_constant_zero_apply, ← Equiv.sum_comp (contrEquiv1 DAV 32 rfl rfl).symm]
  refine Finset.sum_congr rfl fun k _ => ?_
  have hk := contrEquiv1_symm_val DAV 32 rfl rfl k
  have el : DAV.lhsIdx (ix3 b i d) ((contrEquiv1 DAV 32 rfl rfl).symm k) = ix3 b i k := funext fun a => Fin.ext (by
    match a with
    | ⟨0, _⟩ => exact matmulAV_lhs_0 _ _
    | ⟨1, _⟩ => exact matmulAV_lhs_1 _ _
    | ⟨2, _⟩ => exact (matmulAV_lhs_2 _ _).trans hk)
  have er : DAV.rhsIdx (ix3 b i d) ((contrEquiv1 DAV 32 rfl rfl).symm k) = ix3 b k d := funext fun a => Fin.ext (by
    match a with
    | ⟨0, _⟩ => exact matmulAV_rhs_0 _ _
    | ⟨1, _⟩ => exact (matmulAV_rhs_1 _ _).trans hk
    | ⟨2, _⟩ => exact matmulAV_rhs_2 _ _)
  rw [el, er]

theorem matmulProj_lhs_0 (i : S1024x1536.Idx) (q : DProj.contr.Idx) :
    (DProj.lhsIdx i q 0).val = (i 0).val := by
  unfold DotDims.lhsIdx
  rw [dif_neg (show ¬(0 : Fin S1024x512.rank) ∈ DProj.lhsBatch by decide), dif_pos (show (0 : Fin S1024x512.rank) ∈ DProj.lhsNonContracting by decide)]
  rfl
theorem matmulProj_lhs_1 (i : S1024x1536.Idx) (q : DProj.contr.Idx) :
    (DProj.lhsIdx i q 1).val = (q ⟨0, by decide⟩).val :=
  DProj.lhsIdx_val_of_single rfl i q
theorem matmulProj_rhs_0 (i : S1024x1536.Idx) (q : DProj.contr.Idx) :
    (DProj.rhsIdx i q 0).val = (q ⟨0, by decide⟩).val :=
  DProj.rhsIdx_val_of_single rfl i q
theorem matmulProj_rhs_1 (i : S1024x1536.Idx) (q : DProj.contr.Idx) :
    (DProj.rhsIdx i q 1).val = (i 1).val := by
  unfold DotDims.rhsIdx
  rw [dif_neg (show ¬(1 : Fin S512x1536.rank) ∈ DProj.rhsBatch by decide), dif_pos (show (1 : Fin S512x1536.rank) ∈ DProj.rhsNonContracting by decide)]
  rfl

/-- The projection to 1536 features: entry (p, o) sums row p at c times column o at c over the feature c. -/
theorem matmulProj_apply (l : FVec Ideal S1024x512 .bf16) (r : FVec Ideal S512x1536 .bf16) (p : Fin 1024) (o : Fin 1536) :
    matmul DProj none l r (constant S1024x1536 .f32 0x00000000#32) (ix2 p o) = ∑ k : Fin 512, l (ix2 p k) * r (ix2 k o) := by
  simp only [matmul]
  rw [Ideal.matmul_constant_zero_apply, ← Equiv.sum_comp (contrEquiv1 DProj 512 rfl rfl).symm]
  refine Finset.sum_congr rfl fun k _ => ?_
  have hk := contrEquiv1_symm_val DProj 512 rfl rfl k
  have el : DProj.lhsIdx (ix2 p o) ((contrEquiv1 DProj 512 rfl rfl).symm k) = ix2 p k := funext fun a => Fin.ext (by
    match a with
    | ⟨0, _⟩ => exact matmulProj_lhs_0 _ _
    | ⟨1, _⟩ => exact (matmulProj_lhs_1 _ _).trans hk)
  have er : DProj.rhsIdx (ix2 p o) ((contrEquiv1 DProj 512 rfl rfl).symm k) = ix2 k o := funext fun a => Fin.ext (by
    match a with
    | ⟨0, _⟩ => exact (matmulProj_rhs_0 _ _).trans hk
    | ⟨1, _⟩ => exact matmulProj_rhs_1 _ _)
  rw [el, er]

theorem matmulOut_lhs_0 (i : S1024x512.Idx) (q : DOut.contr.Idx) :
    (DOut.lhsIdx i q 0).val = (i 0).val := by
  unfold DotDims.lhsIdx
  rw [dif_neg (show ¬(0 : Fin S1024x512.rank) ∈ DOut.lhsBatch by decide), dif_pos (show (0 : Fin S1024x512.rank) ∈ DOut.lhsNonContracting by decide)]
  rfl
theorem matmulOut_lhs_1 (i : S1024x512.Idx) (q : DOut.contr.Idx) :
    (DOut.lhsIdx i q 1).val = (q ⟨0, by decide⟩).val :=
  DOut.lhsIdx_val_of_single rfl i q
theorem matmulOut_rhs_0 (i : S1024x512.Idx) (q : DOut.contr.Idx) :
    (DOut.rhsIdx i q 0).val = (q ⟨0, by decide⟩).val :=
  DOut.rhsIdx_val_of_single rfl i q
theorem matmulOut_rhs_1 (i : S1024x512.Idx) (q : DOut.contr.Idx) :
    (DOut.rhsIdx i q 1).val = (i 1).val := by
  unfold DotDims.rhsIdx
  rw [dif_neg (show ¬(1 : Fin S512x512.rank) ∈ DOut.rhsBatch by decide), dif_pos (show (1 : Fin S512x512.rank) ∈ DOut.rhsNonContracting by decide)]
  rfl

/-- The output projection: entry (p, o) sums row p at c times column o at c over the feature c. -/
theorem matmulOut_apply (l : FVec Ideal S1024x512 .bf16) (r : FVec Ideal S512x512 .bf16) (p : Fin 1024) (o : Fin 512) :
    matmul DOut none l r (constant S1024x512 .f32 0x00000000#32) (ix2 p o) = ∑ k : Fin 512, l (ix2 p k) * r (ix2 k o) := by
  simp only [matmul]
  rw [Ideal.matmul_constant_zero_apply, ← Equiv.sum_comp (contrEquiv1 DOut 512 rfl rfl).symm]
  refine Finset.sum_congr rfl fun k _ => ?_
  have hk := contrEquiv1_symm_val DOut 512 rfl rfl k
  have el : DOut.lhsIdx (ix2 p o) ((contrEquiv1 DOut 512 rfl rfl).symm k) = ix2 p k := funext fun a => Fin.ext (by
    match a with
    | ⟨0, _⟩ => exact matmulOut_lhs_0 _ _
    | ⟨1, _⟩ => exact (matmulOut_lhs_1 _ _).trans hk)
  have er : DOut.rhsIdx (ix2 p o) ((contrEquiv1 DOut 512 rfl rfl).symm k) = ix2 k o := funext fun a => Fin.ext (by
    match a with
    | ⟨0, _⟩ => exact (matmulOut_rhs_0 _ _).trans hk
    | ⟨1, _⟩ => exact matmulOut_rhs_1 _ _)
  rw [el, er]

end Cert.Swa.K

end
-- ==== Proof.KHeadAt.lean ====
/-
  One head of the kernel's body read at an index, at the exact reading.

  For window `b` of the block, token `i` and feature `d` of head `n`, the head's output is the sum over the tokens `j` of
  the second softmax's weight of `j` times the value of `j` at column 32·n + d; the second softmax is taken, along `j`, of
  the first softmax plus the head's bias at (i, j), and the first softmax of the scaled sums, over the 32 columns of
  the head's band, of query `i` times key `j`. Each softmax is the row-softmax `Cert.Swa.soft`: the largest entry
  folded from -inf and compared with -inf once more, subtracted, exponentiated, divided by the sum of the exponentials.
-/
import proofs.«161077_j13520557047932_1_alg».proof.Proof.KHead
import proofs.«161077_j13520557047932_1_alg».proof.Proof.KDots

noncomputable section

open scoped BigOperators

namespace Cert.Swa.K

open Idealize.ShloMosaic Idealize.ShloMosaic.ValueIdx Idealize.SL.Sem
open Cert.KernelIdeal Cert.KernelIdeal.Gen

/-- Column 32·n + d of the 512: feature `d` of head `n`. -/
def hcol (n : Fin 16) (d : Fin 32) : Fin 512 :=
  ⟨32 * n.val + d.val, by have := n.isLt; have := d.isLt; omega⟩

/-- Head `n`'s band at feature `d` is the array at column 32·n + d. -/
theorem band_apply (n : Fin 16) (v : FVec Ideal S32x32x512 .f32) (b i d : Fin 32) :
    band n v (ix3 b i d) = v (ix3 b i (hcol n d)) := by
  show extractStridedSlice S32x32x32 (offN n) v (slicesN n) (ix3 b i d) = _
  exact extractStridedSlice_apply (offN n) v (slicesN n) (ix3 b i d) (ix3 b i (hcol n d)) (fun a => by
    match a with
    | ⟨0, _⟩ => show b.val = 0 + b.val; omega
    | ⟨1, _⟩ => show i.val = 0 + i.val; omega
    | ⟨2, _⟩ => rfl)

/-- The scaled product of query `i` with key `j`. -/
theorem scoresK_apply (n : Fin 16) (q k : FVec Ideal S32x32x512 .f32) (b i j : Fin 32) :
    scoresK n q k (ix3 b i j)
      = (∑ d : Fin 32, q (ix3 b i (hcol n d)) * k (ix3 b j (hcol n d))) * Cert.Swa.scale := by
  show (matmul DQK none (band n q) (band n k) (constant S32x32x32 .f32 0x00000000#32) (ix3 b i j)) * Cert.Swa.scale = _
  rw [matmulQK_apply]
  simp only [band_apply]

/-- The index over (b, i) whose last coordinate is `k`. -/
theorem lift_eq (b i k : Fin 32) : reduces_S32x32x32_S32x32.lift (ix2 b i) k = ix3 b i k :=
  funext fun a => Fin.ext (by
    match a with
    | ⟨0, _⟩ => rfl
    | ⟨1, _⟩ => rfl
    | ⟨2, _⟩ => rfl)

/-- A [32, 32] array of per-row numbers spread back along the last axis. -/
theorem spread_apply (v : FVec Ideal S32x32 .f32) (b i j : Fin 32) :
    broadcastTo S32x32x32 (shapeCast S32x32x1 v shapeCasts_S32x32_S32x32x1) broadcasts_S32x32x1_S32x32x32 (ix3 b i j)
      = v (ix2 b i) := by
  refine (broadcastTo_apply _ _ (ix3 b i j) (ix3 b i (0 : Fin 1)) (fun a => ?_)).trans ?_
  · match a with
    | ⟨0, _⟩ => show b.val = if (32 : Nat) = 1 then 0 else b.val; rw [if_neg (by decide)]
    | ⟨1, _⟩ => show i.val = if (32 : Nat) = 1 then 0 else i.val; rw [if_neg (by decide)]
    | ⟨2, _⟩ => show (0 : Nat) = if (1 : Nat) = 1 then 0 else j.val; rw [if_pos rfl]
  · exact shapeCast_apply _ _ (ix3 b i (0 : Fin 1)) (ix2 b i) (by
      rw [Shape.rowMajor_val_two, Shape.rowMajor_val_three]
      show b.val * 32 + i.val = (b.val * 32 + i.val) * 1 + 0
      omega)

/-- The row's largest entry. -/
theorem topK_apply (s : FVec Ideal S32x32x32 .f32) (b i j : Fin 32) :
    topK s (ix3 b i j) = Cert.Swa.rowTop (fun j' => s (ix3 b i j')) := by
  unfold topK
  rw [spread_apply]
  show max Cert.Swa.negInf (multiReduction .maximumf [2] S32x32 s 0xFF800000#32 reduces_S32x32x32_S32x32 (.inl rfl) rfl (ix2 b i)) = _
  refine congrArg (max Cert.Swa.negInf)
    ((Ideal.multiReduction_maximumf_single s 0xFF800000#32 reduces_S32x32x32_S32x32 (.inl rfl) rfl (ix2 b i)).trans ?_)
  have e : (s ∘ reduces_S32x32x32_S32x32.lift (ix2 b i)) = fun j' : Fin 32 => s (ix3 b i j') :=
    funext fun k => congrArg s (lift_eq b i k)
  exact congrArg (fun f : Fin 32 → EReal => (Finset.univ : Finset (Fin 32)).fold max Cert.Swa.negInf f) e

/-- An entry's exponential less the row's largest. -/
theorem expK_apply (s : FVec Ideal S32x32x32 .f32) (b i j : Fin 32) :
    expK s (ix3 b i j) = Ideal.exp (s (ix3 b i j) - Cert.Swa.rowTop (fun j' => s (ix3 b i j'))) := by
  show Ideal.exp (s (ix3 b i j) - topK s (ix3 b i j)) = _
  rw [topK_apply]

/-- The softmax along the last axis is the row-softmax. -/
theorem softK_apply (s : FVec Ideal S32x32x32 .f32) (b i j : Fin 32) :
    softK s (ix3 b i j) = Cert.Swa.soft (fun j' => s (ix3 b i j')) j := by
  unfold softK
  show Ideal.div (expK s (ix3 b i j)) (broadcastTo S32x32x32 (shapeCast S32x32x1 (multiReduction .add [2] S32x32 (expK s) 0x00000000#32 reduces_S32x32x32_S32x32 (.inl rfl) rfl) shapeCasts_S32x32_S32x32x1) broadcasts_S32x32x1_S32x32x32 (ix3 b i j)) = _
  rw [spread_apply, expK_apply]
  unfold Cert.Swa.soft
  refine congrArg (Ideal.div _)
    ((Ideal.multiReduction_add_single (expK s) 0x00000000#32 reduces_S32x32x32_S32x32 (.inl rfl) rfl (ix2 b i)).trans ?_)
  show ∑ k : Fin 32, expK s (reduces_S32x32x32_S32x32.lift (ix2 b i) k) = _
  exact Finset.sum_congr rfl fun k _ => by rw [lift_eq, expK_apply]

/-- The bias block spread over the windows. -/
theorem biasK_apply (bb : Vec Ideal S1x32x32 .f32) (b i j : Fin 32) :
    biasK bb (ix3 b i j) = bb (ix3 (0 : Fin 1) i j) := by
  unfold biasK
  rw [shapeCast_shapeCast]
  refine broadcastTo_apply _ _ (ix3 b i j) (ix3 (0 : Fin 1) i j) (fun a => ?_)
  match a with
  | ⟨0, _⟩ => show (0 : Nat) = if (1 : Nat) = 1 then 0 else b.val; rw [if_pos rfl]
  | ⟨1, _⟩ => show i.val = if (32 : Nat) = 1 then 0 else i.val; rw [if_neg (by decide)]
  | ⟨2, _⟩ => show j.val = if (32 : Nat) = 1 then 0 else j.val; rw [if_neg (by decide)]

/-- The head's output at window `b`, token `i`, feature `d`. -/
theorem headK_apply (n : Fin 16) (q k v : FVec Ideal S32x32x512 .f32) (bb : Vec Ideal S1x32x32 .f32) (b i d : Fin 32) :
    headK n q k v bb (ix3 b i d)
      = ∑ j : Fin 32,
          Cert.Swa.soft (fun j' =>
            Cert.Swa.soft (fun j'' => (∑ e : Fin 32, q (ix3 b i (hcol n e)) * k (ix3 b j'' (hcol n e))) * Cert.Swa.scale) j'
              + bb (ix3 (0 : Fin 1) i j')) j
          * v (ix3 b j (hcol n d)) := by
  unfold headK
  rw [matmulAV_apply]
  refine Finset.sum_congr rfl fun j _ => ?_
  rw [band_apply]
  show softK (addf (softK (scoresK n q k)) (biasK bb)) (ix3 b i j) * _ = _
  rw [softK_apply]
  refine congrArg (fun f => Cert.Swa.soft f j * v (ix3 b j (hcol n d))) (funext fun j' => ?_)
  show softK (scoresK n q k) (ix3 b i j') + biasK bb (ix3 b i j') = _
  rw [softK_apply, biasK_apply]
  refine congrArg (fun f => Cert.Swa.soft f j' + bb (ix3 (0 : Fin 1) i j')) (funext fun j'' => ?_)
  exact scoresK_apply n q k b i j''

end Cert.Swa.K

end
-- ==== Proof.KBody.lean ====
/-
  What the kernel's body leaves in a block of the output, read at an index, at the exact reading.

  The block holds 32 windows. Its 32·32 (window, token) rows of 512 features are projected to 1536 features (a plain
  matrix product, so entry (b, i, o) is the sum over the feature c of the block's (b, i, c) times the weights' (c, o)),
  cut into the three bands of queries, keys and values; the 16 heads' outputs are put side by side (feature c of the
  512 is feature c mod 32 of head c div 32), projected by the [512, 512] weights, and the bias row is added.
-/
import proofs.«161077_j13520557047932_1_alg».proof.Proof.KHeads
import proofs.«161077_j13520557047932_1_alg».proof.Proof.KHeadAt

noncomputable section

open scoped BigOperators

namespace Cert.Swa.K

open Idealize.ShloMosaic Idealize.ShloMosaic.ValueIdx Idealize.SL.Sem
open Cert.KernelIdeal Cert.KernelIdeal.Gen

/-- Row 32·b + i of the 1024 rows of a block: token `i` of window `b`. -/
def rowOf (b i : Fin 32) : Fin 1024 :=
  ⟨b.val * 32 + i.val, by have := b.isLt; have := i.isLt; omega⟩

/-- Column 512·s + c of the 1536: feature `c` of band `s`. -/
def bcol (s : Fin 3) (c : Fin 512) : Fin 1536 :=
  ⟨512 * s.val + c.val, by have := s.isLt; have := c.isLt; omega⟩

theorem bcol_hcol (s : Fin 3) (n : Fin 16) (d : Fin 32) : bcol s (hcol n d) = Cert.Swa.col s n d :=
  Fin.ext (by show 512 * s.val + (32 * n.val + d.val) = 512 * s.val + 32 * n.val + d.val; omega)

/-- The [32, 32, 512] ↔ [1024, 512] re-laying keeps (b, i, c) at (32·b + i, c). -/
theorem relay_apply (v : FVec Ideal S32x32x512 .f32) (b i : Fin 32) (c : Fin 512) :
    shapeCast S1024x512 v shapeCasts_S32x32x512_S1024x512 (ix2 (rowOf b i) c) = v (ix3 b i c) :=
  shapeCast_apply _ _ (ix2 (rowOf b i) c) (ix3 b i c) (by
    rw [Shape.rowMajor_val_two, Shape.rowMajor_val_three]; rfl)

/-- The projected features of a block. -/
theorem pay2_apply (X0 : Vec Ideal S32x32x512 .f32) (X1 : Vec Ideal S512x1536 .bf16) (b i : Fin 32) (o : Fin 1536) :
    k0_pay2 X0 X1 (ix3 b i o) = ∑ c : Fin 512, X0 (ix3 b i c) * X1 (ix2 c o) := by
  show shapeCast S32x32x1536 (matmul DProj none (truncf .bf16 (shapeCast S1024x512 X0 shapeCasts_S32x32x512_S1024x512) bitsLt_bf16_f32)
      (shapeCast S512x1536 X1 shapeCasts_S512x1536_S512x1536 : FVec Ideal S512x1536 .bf16) (constant S1024x1536 .f32 0x00000000#32))
      shapeCasts_S1024x1536_S32x32x1536 (ix3 b i o) = _
  refine (shapeCast_apply _ _ (ix3 b i o) (ix2 (rowOf b i) o) (by
    rw [Shape.rowMajor_val_two, Shape.rowMajor_val_three]; rfl)).trans ?_
  refine (matmulProj_apply _ _ (rowOf b i) o).trans ?_
  refine Finset.sum_congr rfl fun c _ => ?_
  rw [shapeCast_self]
  exact congrArg (· * X1 (ix2 c o)) (relay_apply X0 b i c)

/-- The three bands of the projected features. -/
theorem pay3_apply (X0 : Vec Ideal S32x32x512 .f32) (X1 : Vec Ideal S512x1536 .bf16) (b i : Fin 32) (c : Fin 512) :
    k0_pay3 X0 X1 (ix3 b i c) = k0_pay2 X0 X1 (ix3 b i (bcol 0 c)) :=
  extractStridedSlice_apply _ (k0_pay2 X0 X1) slices_S32x32x1536_o0_0_0_S32x32x512 (ix3 b i c) (ix3 b i (bcol 0 c)) (fun a => by
    match a with
    | ⟨0, _⟩ => show b.val = 0 + b.val; omega
    | ⟨1, _⟩ => show i.val = 0 + i.val; omega
    | ⟨2, _⟩ => show 512 * 0 + c.val = 0 + c.val; omega)

theorem pay4_apply (X0 : Vec Ideal S32x32x512 .f32) (X1 : Vec Ideal S512x1536 .bf16) (b i : Fin 32) (c : Fin 512) :
    k0_pay4 X0 X1 (ix3 b i c) = k0_pay2 X0 X1 (ix3 b i (bcol 1 c)) :=
  extractStridedSlice_apply _ (k0_pay2 X0 X1) slices_S32x32x1536_o0_0_512_S32x32x512 (ix3 b i c) (ix3 b i (bcol 1 c)) (fun a => by
    match a with
    | ⟨0, _⟩ => show b.val = 0 + b.val; omega
    | ⟨1, _⟩ => show i.val = 0 + i.val; omega
    | ⟨2, _⟩ => show 512 * 1 + c.val = 512 + c.val; omega)

theorem pay5_apply (X0 : Vec Ideal S32x32x512 .f32) (X1 : Vec Ideal S512x1536 .bf16) (b i : Fin 32) (c : Fin 512) :
    k0_pay5 X0 X1 (ix3 b i c) = k0_pay2 X0 X1 (ix3 b i (bcol 2 c)) :=
  extractStridedSlice_apply _ (k0_pay2 X0 X1) slices_S32x32x1536_o0_0_1024_S32x32x512 (ix3 b i c) (ix3 b i (bcol 2 c)) (fun a => by
    match a with
    | ⟨0, _⟩ => show b.val = 0 + b.val; omega
    | ⟨1, _⟩ => show i.val = 0 + i.val; omega
    | ⟨2, _⟩ => show 512 * 2 + c.val = 1024 + c.val; omega)

/-- The output projection of the heads side by side, plus the bias row. -/
theorem pay153_apply (cat : FVec Ideal S32x32x512 .f32) (W : Vec Ideal S512x512 .bf16) (Bv : Vec Ideal S1x512 .f32)
    (b i : Fin 32) (o : Fin 512) :
    k0_pay1 (k0_pay53 cat W) Bv (ix3 b i o) = (∑ c : Fin 512, cat (ix3 b i c) * W (ix2 c o)) + Bv (ix2 (0 : Fin 1) o) := by
  show shapeCast S32x32x512 (addf
      (matmul DOut none (truncf .bf16 (shapeCast S1024x512 cat shapeCasts_S32x32x512_S1024x512) bitsLt_bf16_f32)
        (shapeCast S512x512 W shapeCasts_S512x512_S512x512 : FVec Ideal S512x512 .bf16) (constant S1024x512 .f32 0x00000000#32))
      (broadcastTo S1024x512 (shapeCast S1x512 Bv shapeCasts_S1x512_S1x512 : FVec Ideal S1x512 .f32) broadcasts_S1x512_S1024x512))
      shapeCasts_S1024x512_S32x32x512 (ix3 b i o) = _
  refine (shapeCast_apply _ _ (ix3 b i o) (ix2 (rowOf b i) o) (by
    rw [Shape.rowMajor_val_two, Shape.rowMajor_val_three]; rfl)).trans ?_
  show matmul DOut none (truncf .bf16 (shapeCast S1024x512 cat shapeCasts_S32x32x512_S1024x512) bitsLt_bf16_f32)
        (shapeCast S512x512 W shapeCasts_S512x512_S512x512 : FVec Ideal S512x512 .bf16) (constant S1024x512 .f32 0x00000000#32) (ix2 (rowOf b i) o)
      + broadcastTo S1024x512 (shapeCast S1x512 Bv shapeCasts_S1x512_S1x512 : FVec Ideal S1x512 .f32) broadcasts_S1x512_S1024x512 (ix2 (rowOf b i) o) = _
  rw [shapeCast_self, shapeCast_self]
  refine congrArg₂ (· + ·) ((matmulOut_apply _ _ (rowOf b i) o).trans ?_) ?_
  · exact Finset.sum_congr rfl fun c _ => congrArg (· * W (ix2 c o)) (relay_apply cat b i c)
  · exact broadcastTo_apply _ _ (ix2 (rowOf b i) o) (ix2 (0 : Fin 1) o) (fun a => by
      match a with
      | ⟨0, _⟩ => show (0 : Nat) = if (1 : Nat) = 1 then 0 else (rowOf b i).val; rw [if_pos rfl]
      | ⟨1, _⟩ => show o.val = if (512 : Nat) = 1 then 0 else o.val; rw [if_neg (by decide)])

/-- Sixteen [32, 32, 32] arrays side by side along the features: feature `c` of the 512 is feature `c mod 32` of piece
    `c div 32`. -/
theorem cat16_apply (H : Fin 16 → FVec Ideal S32x32x32 .f32) (b i : Fin 32) (c : Fin 512) :
    concatenate S32x32x512 2 [⟨S32x32x32, H ⟨0, by decide⟩⟩, ⟨S32x32x32, H ⟨1, by decide⟩⟩, ⟨S32x32x32, H ⟨2, by decide⟩⟩, ⟨S32x32x32, H ⟨3, by decide⟩⟩, ⟨S32x32x32, H ⟨4, by decide⟩⟩, ⟨S32x32x32, H ⟨5, by decide⟩⟩, ⟨S32x32x32, H ⟨6, by decide⟩⟩, ⟨S32x32x32, H ⟨7, by decide⟩⟩, ⟨S32x32x32, H ⟨8, by decide⟩⟩, ⟨S32x32x32, H ⟨9, by decide⟩⟩, ⟨S32x32x32, H ⟨10, by decide⟩⟩, ⟨S32x32x32, H ⟨11, by decide⟩⟩, ⟨S32x32x32, H ⟨12, by decide⟩⟩, ⟨S32x32x32, H ⟨13, by decide⟩⟩, ⟨S32x32x32, H ⟨14, by decide⟩⟩, ⟨S32x32x32, H ⟨15, by decide⟩⟩]
        concatenates_S32x32x32_S32x32x32_S32x32x32_S32x32x32_S32x32x32_S32x32x32_S32x32x32_S32x32x32_S32x32x32_S32x32x32_S32x32x32_S32x32x32_S32x32x32_S32x32x32_S32x32x32_S32x32x32_S32x32x512_d2 (ix3 b i c)
      = H (Cert.Swa.headOf c) (ix3 b i (Cert.Swa.featOf c)) := by
  show concatenate S32x32x512 2 (List.ofFn fun n : Fin 16 => (⟨S32x32x32, H n⟩ : (s : Shape) × (s.Idx → EReal)))
      concatenates_S32x32x32_S32x32x32_S32x32x32_S32x32x32_S32x32x32_S32x32x32_S32x32x32_S32x32x32_S32x32x32_S32x32x32_S32x32x32_S32x32x32_S32x32x32_S32x32x32_S32x32x32_S32x32x32_S32x32x512_d2 (ix3 b i c) = _
  refine concatenate_ofFn_apply (t := S32x32x512) (s₁ := S32x32x32) (2 : Fin 3) H _ rfl 32 rfl (ix3 b i c) (Cert.Swa.headOf c) rfl (ix3 b i (Cert.Swa.featOf c)) rfl (fun a ha => ?_)
  match a with
  | ⟨0, _⟩ => rfl
  | ⟨1, _⟩ => rfl
  | ⟨2, _⟩ => exact absurd rfl ha

/-- Head `n`'s bias block is the bias array at head `n`. -/
theorem biasBlk_apply (x4 : Vec Ideal S16x32x32 .f32) (n : Fin 16) (i j : Fin 32) :
    biasBlk x4 n (ix3 (0 : Fin 1) i j) = x4 (ix3 n i j) := by
  show x4 ((Rect.unit (s := S16x32x32) ![n.val, 0, 0] S1x32x32.size (inbN n)).emb (ix3 (0 : Fin 1) i j)) = _
  refine congrArg x4 (funext fun a => Fin.ext ?_)
  match a with
  | ⟨0, _⟩ => show n.val + 1 * 0 = n.val; omega
  | ⟨1, _⟩ => show 0 + 1 * i.val = i.val; omega
  | ⟨2, _⟩ => show 0 + 1 * j.val = j.val; omega

end Cert.Swa.K

end
-- ==== Proof.KBlock.lean ====
/-
  A block of the kernel's output is the block of the specification.

  Grid point `t` of the kernel stages windows 32·t … 32·t + 31 of the input, the whole transposed weights, the bias row
  and the whole positional-bias array, and leaves a [32, 32, 512] block. If the staged input block is the input at
  those windows, the staged weights are the weights with their two axes exchanged, and the staged row is the bias
  vector, then the block at (b, i, o) is the layer's output at window 32·t + b, token i, feature o: both are the same
  finite sums of the same terms, softmax by softmax.
-/
import proofs.«161077_j13520557047932_1_alg».proof.Proof.KBody

noncomputable section

open scoped BigOperators

namespace Cert.Swa.K

open Idealize.ShloMosaic Idealize.ShloMosaic.ValueIdx Idealize.SL.Sem
open Cert.KernelIdeal Cert.KernelIdeal.Gen

theorem hz3 : (![0, 0, 0] : Fin 3 → Nat) = fun _ => 0 :=
  funext fun a => by match a with | ⟨0, _⟩ => rfl | ⟨1, _⟩ => rfl | ⟨2, _⟩ => rfl
theorem hz2 : (![0, 0] : Fin 2 → Nat) = fun _ => 0 :=
  funext fun a => by match a with | ⟨0, _⟩ => rfl | ⟨1, _⟩ => rfl

/-- The block the body leaves, at an index: the heads side by side, projected, plus the bias row. -/
theorem out0_5_apply (x0 : Vec Ideal S32x32x512 .f32) (x1 : Vec Ideal S512x1536 .bf16) (x2 : Vec Ideal S512x512 .bf16)
    (x3 : Vec Ideal S1x512 .f32) (x4 : Vec Ideal S16x32x32 .f32) (b i : Fin 32) (o : Fin 512) :
    out0_5 x0 x1 x2 x3 x4 (ix3 b i o)
      = (∑ c : Fin 512, heads x0 x1 x4 (Cert.Swa.headOf c) (ix3 b i (Cert.Swa.featOf c)) * x2 (ix2 c o))
        + x3 (ix2 (0 : Fin 1) o) := by
  have e0 : View.ld x0 r0_0 = x0 := View.ld_unit_zero hz3 _ x0
  have e1 : View.ld x1 r0_1 = x1 := View.ld_unit_zero hz2 _ x1
  have e2 : View.ld x2 r0_18 = x2 := View.ld_unit_zero hz2 _ x2
  have e3 : View.ld x3 r0_19 = x3 := View.ld_unit_zero hz2 _ x3
  unfold out0_5
  rw [View.canon_unit_zero hz3, e0, e1, e2, e3]
  simp only [head0_eq, head1_eq, head2_eq, head3_eq, head4_eq, head5_eq, head6_eq, head7_eq, head8_eq, head9_eq, head10_eq, head11_eq, head12_eq, head13_eq, head14_eq, head15_eq]
  refine (pay153_apply _ x2 x3 b i o).trans ?_
  refine congrArg (· + x3 (ix2 (0 : Fin 1) o)) (Finset.sum_congr rfl fun c _ => ?_)
  refine congrArg (· * x2 (ix2 c o)) ?_
  exact cat16_apply (heads x0 x1 x4) b i c

section Bridge
variable (x : (⟨3, ![4096, 32, 512]⟩ : Shape).Idx → EReal) (w : (⟨2, ![1536, 512]⟩ : Shape).Idx → EReal)
  (ow : (⟨2, ![512, 512]⟩ : Shape).Idx → EReal) (ob : (⟨1, ![512]⟩ : Shape).Idx → EReal)
  (bias : (⟨3, ![16, 32, 32]⟩ : Shape).Idx → EReal)
variable (x0 : Vec Ideal S32x32x512 .f32) (x1 : Vec Ideal S512x1536 .bf16) (x2 : Vec Ideal S512x512 .bf16)
  (x3 : Vec Ideal S1x512 .f32)
variable (W : Fin 4096) (b : Fin 32)

/-- The block's projected features are the specification's at window `W`. -/
theorem proj_of (hx : ∀ (i : Fin 32) (c : Fin 512), x0 (ix3 b i c) = x (ix3 W i c))
    (hw : ∀ (c : Fin 512) (o : Fin 1536), x1 (ix2 c o) = w (ix2 o c)) (i : Fin 32) (o : Fin 1536) :
    k0_pay2 x0 x1 (ix3 b i o) = Cert.Swa.proj x w W i o := by
  rw [pay2_apply]
  unfold Cert.Swa.proj
  exact Finset.sum_congr rfl fun c _ => by rw [hx, hw]

/-- A head of the block is the specification's head at window `W`. -/
theorem heads_of (hx : ∀ (i : Fin 32) (c : Fin 512), x0 (ix3 b i c) = x (ix3 W i c))
    (hw : ∀ (c : Fin 512) (o : Fin 1536), x1 (ix2 c o) = w (ix2 o c)) (n : Fin 16) (i d : Fin 32) :
    heads x0 x1 bias n (ix3 b i d) = Cert.Swa.headOut x w bias W n i d := by
  unfold heads
  rw [headK_apply]
  unfold Cert.Swa.headOut
  refine Finset.sum_congr rfl fun j _ => ?_
  rw [pay5_apply, proj_of x w x0 x1 W b hx hw, bcol_hcol]
  refine congrArg (· * Cert.Swa.proj x w W j (Cert.Swa.col 2 n d)) ?_
  unfold Cert.Swa.att2
  refine congrArg (fun f => Cert.Swa.soft f j) (funext fun j' => ?_)
  rw [biasBlk_apply]
  refine congrArg (· + bias (ix3 n i j')) ?_
  unfold Cert.Swa.att1
  refine congrArg (fun f => Cert.Swa.soft f j') (funext fun j'' => ?_)
  unfold Cert.Swa.score
  refine congrArg (· * Cert.Swa.scale) (Finset.sum_congr rfl fun e _ => ?_)
  rw [pay3_apply, pay4_apply, proj_of x w x0 x1 W b hx hw, proj_of x w x0 x1 W b hx hw, bcol_hcol, bcol_hcol]

/-- The block at (b, i, o) is the layer's output at window `W`, token `i`, feature `o`. -/
theorem out_of (hx : ∀ (i : Fin 32) (c : Fin 512), x0 (ix3 b i c) = x (ix3 W i c))
    (hw : ∀ (c : Fin 512) (o : Fin 1536), x1 (ix2 c o) = w (ix2 o c))
    (how : ∀ (c o : Fin 512), x2 (ix2 c o) = ow (ix2 o c))
    (hob : ∀ o : Fin 512, x3 (ix2 (0 : Fin 1) o) = ob (ix1 o)) (i : Fin 32) (o : Fin 512) :
    out0_5 x0 x1 x2 x3 bias (ix3 b i o) = Cert.Swa.G x w ow ob bias (ix3 W i o) := by
  rw [out0_5_apply]
  show _ = (∑ c : Fin 512, Cert.Swa.headOut x w bias W (Cert.Swa.headOf c) i (Cert.Swa.featOf c) * ow (ix2 o c)) + ob (ix1 o)
  rw [hob]
  exact congrArg (· + ob (ix1 o)) (Finset.sum_congr rfl fun c _ => by rw [heads_of x w bias x0 x1 W b hx hw, how])

end Bridge

end Cert.Swa.K

end
-- ==== Proof.KHost.lean ====
/-
  What the kernel program's host operations leave in the four arrays its region stages besides the tokens.

  Before the region the program transposes the projection weights [1536, 512] to [512, 1536] and the output weights
  [512, 512] to their transpose (each then changes float format, which on the extended reals is the identity), reshapes
  the bias row [512] to [1, 512], and builds the [16, 32, 32] positional bias from the 63 x 16 table: relative positions
  i − j + 31 of a 32 x 32 grid (wrapped by 63 when negative), a table lookup of the 16 per-head entries at each, and a
  transpose that brings the head to the front. The reference builds its positional bias by the very same operations,
  so the two arrays are the same function of the table, whatever the lookup reads.
-/
import proofs.«161077_j13520557047932_1_alg».proof.Proof.Gen.KernelIdeal.Frame
import proofs.«161077_j13520557047932_1_alg».proof.Proof.Gen.ReferenceIdeal.Read
import Idealize.ShloMosaic.Lib.Pipeline.Value
import Idealize.ShloMosaic.Lib.ValueIdx
import Idealize.ShloMosaic.Lib.StableHlo.Run

noncomputable section

namespace Cert.Swa.KHost

open Cert.KernelIdeal Cert.KernelIdeal.Gen Idealize.ShloMosaic Idealize.ShloMosaic.TcCoe Idealize.ShloMosaic.ValueIdx Idealize.SL.Sem Idealize.ShloMosaic.StableHlo

variable (m : (ℓ : Loc Cert.KernelIdeal.nD Cert.KernelIdeal.τ Cert.KernelIdeal.sig) → Buf (Elt Ideal) ℓ) (c : Dev Cert.KernelIdeal.nD)

/-- The projection weights as staged: entry (k, o) is entry (o, k) of the argument. -/
theorem projWeights_at (k : Fin 512) (o : Fin 1536) :
    (Gen.V m c main_v17 : S512x1536.Idx → EReal) (ix2 k o)
      = (m ((c : Thread nD τ).loc main_arg1) : S1536x512.Idx → EReal) (ix2 o k) := by
  dsimp only [Gen.V, Gen.hostOps0]
  after_results
  show transpose S512x1536 [1, 0] (m ((c : Thread nD τ).loc main_arg1) : S1536x512.Idx → EReal)
      transposes_S1536x512_S512x1536_1_0 (ix2 k o) = _
  exact transpose_apply [1, 0] _ transposes_S1536x512_S512x1536_1_0 (ix2 k o) (ix2 o k)
    (fun b => match b with | ⟨0, _⟩ => rfl | ⟨1, _⟩ => rfl)

/-- The output weights as staged: entry (k, o) is entry (o, k) of the argument. -/
theorem outWeights_at (k o : Fin 512) :
    (Gen.V m c main_v19 : S512x512.Idx → EReal) (ix2 k o)
      = (m ((c : Thread nD τ).loc main_arg2) : S512x512.Idx → EReal) (ix2 o k) := by
  dsimp only [Gen.V, Gen.hostOps0]
  after_results
  show transpose S512x512 [1, 0] (m ((c : Thread nD τ).loc main_arg2) : S512x512.Idx → EReal)
      transposes_S512x512_S512x512_1_0 (ix2 k o) = _
  exact transpose_apply [1, 0] _ transposes_S512x512_S512x512_1_0 (ix2 k o) (ix2 o k)
    (fun b => match b with | ⟨0, _⟩ => rfl | ⟨1, _⟩ => rfl)

/-- The bias row as staged: entry (0, o) is entry o of the argument. -/
theorem biasRow_at (o : Fin 512) :
    (Gen.V m c main_v20 : S1x512.Idx → EReal) (ix2 (0 : Fin 1) o)
      = (m ((c : Thread nD τ).loc main_arg3) : S512.Idx → EReal) (ix1 o) := by
  dsimp only [Gen.V, Gen.hostOps0]
  after_results
  show shapeCast S1x512 (m ((c : Thread nD τ).loc main_arg3) : S512.Idx → EReal) shapeCasts_S512_S1x512 (ix2 (0 : Fin 1) o) = _
  exact shapeCast_apply _ shapeCasts_S512_S1x512 (ix2 (0 : Fin 1) o) (ix1 o)
    (by rewrite [Shape.rowMajor_val_one, Shape.rowMajor_val_two]; show o.val = 0 * 512 + o.val; omega)

/-- The positional bias as staged is the reference's positional bias of the same table: the two programs build it by
    the same operations. -/
theorem posBias_eq :
    (Gen.V m c main_v15 : S16x32x32.Idx → EReal)
      = Cert.ReferenceIdeal.Read.val_main_v38 (F := Ideal) (m ((c : Thread nD τ).loc main_arg4)) := by
  dsimp only [Gen.V, Gen.hostOps0]
  after_results_simp
  rfl

end Cert.Swa.KHost

end
-- ==== Proof.KFinal.lean ====
/-
  From blocks to the whole output array, and the kernel's run.

  The kernel's grid has 128 points; point `t` stages windows 32·t … 32·t + 31 of the input (all 32 tokens, all 512
  features), the whole of each of the other four arrays, and writes back windows 32·t … 32·t + 31 of the output. What
  it writes back is the block of the layer's output (`Cert.Swa.G`) at those windows, the 128 blocks fill the output
  array, and so after the run the output array IS the layer's output of the argument arrays and of the positional bias
  the program built from its table.
-/
import proofs.«161077_j13520557047932_1_alg».proof.Proof.KBlock
import proofs.«161077_j13520557047932_1_alg».proof.Proof.KHost

noncomputable section

open scoped BigOperators

namespace Cert.Swa.K

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The printed index maps, decided over the 128 grid points: the input's and the output's blocks move along the
    windows with the point, every other window stays on its one block. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = 0 ∧ win0_4.index t (1 : Fin 3) = 0 ∧ win0_4.index t (2 : Fin 3) = 0
    ∧ win0_5.index t (0 : Fin 3) = t.val ∧ win0_5.index t (1 : Fin 3) = 0 ∧ win0_5.index t (2 : Fin 3) = 0 :=
  (by decide +kernel : ∀ t : Fin grid0.N, _)

/-- The output array after the run, as a function of the memory the program is launched from. -/
abbrev outOf (c : Dev nD) : S4096x32x512.Idx → EReal :=
  Cert.Swa.G (m ((c : Thread nD τ).loc main_arg0)) (m ((c : Thread nD τ).loc main_arg1))
    (m ((c : Thread nD τ).loc main_arg2)) (m ((c : Thread nD τ).loc main_arg3)) (V m c main_v15)

/-- WHAT POINT `t` WRITES BACK is block `t` of the layer's output. -/
theorem flushed5_eq (c : Dev nD) (t : Fin cfg0.N) :
    (dats m 0 c).flushed 5 t = ((cfg0.win 5).blk t).view.read (Elt Ideal) (outOf m c) := by
  show (cfg0.win 5).cut (grid0.coords t) ((dats m 0 c).after 5 t) = _
  rw [after0_5]
  obtain ⟨e00, e01, e02, e10, e11, e20, e21, e30, e31, e40, e41, e42, e50, e51, e52⟩ := idx_facts t
  have ht : t.val < 128 := t.isLt
  funext y
  obtain ⟨b, i, o, rfl⟩ : ∃ (b i : Fin 32) (o : Fin 512), y = ix3 b i o := ⟨y 0, y 1, y 2, eq_ix3 y⟩
  have hb : b.val < 32 := b.isLt
  show out0_5 (iblk m c 0 t) (iblk m c 1 t) (iblk m c 2 t) (iblk m c 3 t) (iblk m c 4 t) (ix3 b i o)
      = outOf m c (((cfg0.win 5).blk t).view.emb (ix3 b i o))
  have hemb : ((cfg0.win 5).blk t).view.emb (ix3 b i o) = ix3 (⟨32 * t.val + b.val, by omega⟩ : Fin 4096) i o := by
    funext a; apply Fin.ext
    match a with
    | ⟨0, _⟩ => show win0_5.index t (0 : Fin 3) * 32 + 1 * b.val = 32 * t.val + b.val; omega
    | ⟨1, _⟩ => show win0_5.index t (1 : Fin 3) * 32 + 1 * i.val = i.val; omega
    | ⟨2, _⟩ => show win0_5.index t (2 : Fin 3) * 512 + 1 * o.val = o.val; omega
  rw [hemb]
  have h4 : iblk m c 4 t = V m c main_v15 := by
    funext z
    show V m c main_v15 (((cfg0.win 4).blk t).view.emb z) = V m c main_v15 z
    refine congrArg (V m c main_v15) (funext fun a => Fin.ext ?_)
    match a with
    | ⟨0, _⟩ => show win0_4.index t (0 : Fin 3) * 16 + 1 * (z 0).val = (z 0).val; omega
    | ⟨1, _⟩ => show win0_4.index t (1 : Fin 3) * 32 + 1 * (z 1).val = (z 1).val; omega
    | ⟨2, _⟩ => show win0_4.index t (2 : Fin 3) * 32 + 1 * (z 2).val = (z 2).val; omega
  rw [h4]
  refine out_of (m ((c : Thread nD τ).loc main_arg0)) (m ((c : Thread nD τ).loc main_arg1))
    (m ((c : Thread nD τ).loc main_arg2)) (m ((c : Thread nD τ).loc main_arg3)) (V m c main_v15)
    (iblk m c 0 t) (iblk m c 1 t) (iblk m c 2 t) (iblk m c 3 t) (⟨32 * t.val + b.val, by omega⟩ : Fin 4096) b ?_ ?_ ?_ ?_ i o
  · intro i' c'
    show V m c main_arg0 (((cfg0.win 0).blk t).view.emb (ix3 b i' c')) = _
    rw [V_main_arg0]
    refine congrArg (m ((c : Thread nD τ).loc main_arg0)) (funext fun a => Fin.ext ?_)
    match a with
    | ⟨0, _⟩ => show win0_0.index t (0 : Fin 3) * 32 + 1 * b.val = 32 * t.val + b.val; omega
    | ⟨1, _⟩ => show win0_0.index t (1 : Fin 3) * 32 + 1 * i'.val = i'.val; omega
    | ⟨2, _⟩ => show win0_0.index t (2 : Fin 3) * 512 + 1 * c'.val = c'.val; omega
  · intro c' o'
    show V m c main_v17 (((cfg0.win 1).blk t).view.emb (ix2 c' o')) = _
    have e : ((cfg0.win 1).blk t).view.emb (ix2 c' o') = ix2 c' o' := by
      funext a; apply Fin.ext
      match a with
      | ⟨0, _⟩ => show win0_1.index t (0 : Fin 2) * 512 + 1 * c'.val = c'.val; omega
      | ⟨1, _⟩ => show win0_1.index t (1 : Fin 2) * 1536 + 1 * o'.val = o'.val; omega
    rw [e]
    exact Cert.Swa.KHost.projWeights_at m c c' o'
  · intro c' o'
    show V m c main_v19 (((cfg0.win 2).blk t).view.emb (ix2 c' o')) = _
    have e : ((cfg0.win 2).blk t).view.emb (ix2 c' o') = ix2 c' o' := by
      funext a; apply Fin.ext
      match a with
      | ⟨0, _⟩ => show win0_2.index t (0 : Fin 2) * 512 + 1 * c'.val = c'.val; omega
      | ⟨1, _⟩ => show win0_2.index t (1 : Fin 2) * 512 + 1 * o'.val = o'.val; omega
    rw [e]
    exact Cert.Swa.KHost.outWeights_at m c c' o'
  · intro o'
    show V m c main_v20 (((cfg0.win 3).blk t).view.emb (ix2 (0 : Fin 1) o')) = _
    have e : ((cfg0.win 3).blk t).view.emb (ix2 (0 : Fin 1) o') = ix2 (0 : Fin 1) o' := by
      funext a; apply Fin.ext
      match a with
      | ⟨0, _⟩ => show win0_3.index t (0 : Fin 2) * 1 + 1 * 0 = 0; omega
      | ⟨1, _⟩ => show win0_3.index t (1 : Fin 2) * 512 + 1 * o'.val = o'.val; omega
    rw [e]
    exact Cert.Swa.KHost.biasRow_at m c o'

/-- An index of the output array is in point `t`'s block iff each coordinate is in the block's range on its axis. -/
theorem mem_blk5 (t : Fin cfg0.N) (i : S4096x32x512.Idx) :
    i ∈ ((cfg0.win 5).blk t).view.set ↔ ∀ a : Fin 3, win0_5.index t a * S32x32x512.size a ≤ (i a).val
      ∧ (i a).val < win0_5.index t a * S32x32x512.size a + S32x32x512.size a := by
  show i ∈ ((View.whole main_v21).slice (win0_5.rect t)).set ↔ _
  rw [View.set_slice_whole, Rect.mem_set_unit]
  exact Iff.rfl

/-- Every index of the output array is in the block of the point its window belongs to. -/
theorem cover5 (i : S4096x32x512.Idx) :
    ∃ t : Fin cfg0.N, (cfg0.win 5).flush t = true ∧ i ∈ ((cfg0.win 5).blk t).view.set := by
  have hi0 : (i 0).val < 4096 := (i 0).isLt
  have hi1 : (i 1).val < 32 := (i 1).isLt
  have hi2 : (i 2).val < 512 := (i 2).isLt
  refine ⟨⟨(i 0).val / 32, by show (i 0).val / 32 < 128; omega⟩, flush0_5 _, ?_⟩
  obtain ⟨-, -, -, -, -, -, -, -, -, -, -, -, e50, e51, e52⟩ := idx_facts ⟨(i 0).val / 32, by show (i 0).val / 32 < 128; omega⟩
  rw [mem_blk5]
  intro a
  match a with
  | ⟨0, _⟩ =>
    show win0_5.index _ (0 : Fin 3) * 32 ≤ (i 0).val ∧ (i 0).val < win0_5.index _ (0 : Fin 3) * 32 + 32
    rw [e50]; show (i 0).val / 32 * 32 ≤ (i 0).val ∧ (i 0).val < (i 0).val / 32 * 32 + 32; omega
  | ⟨1, _⟩ =>
    show win0_5.index _ (1 : Fin 3) * 32 ≤ (i 1).val ∧ (i 1).val < win0_5.index _ (1 : Fin 3) * 32 + 32
    rw [e51]; omega
  | ⟨2, _⟩ =>
    show win0_5.index _ (2 : Fin 3) * 512 ≤ (i 2).val ∧ (i 2).val < win0_5.index _ (2 : Fin 3) * 512 + 512
    rw [e52]; omega

/-- THE OUTPUT ARRAY after the run is the layer's output. -/
theorem final5 (c : Dev nD) : (dats m 0 c).arrAt 5 cfg0.N = outOf m c :=
  (dats m 0 c).arrAt_eq_of_cover 5 (outOf m c) (fun t _ => flushed5_eq m c t) cover5

/-- The kernel's run: every weakly fair execution terminates with the output array at the layer's output and the
    argument arrays as launched. -/
theorem run : θ_run defs (onTc (τ := τ) (main (F := Ideal))) ⟨m, fun _ => 0, ρ⟩ fun r => ∀ c : Dev nD,
      r.2.mem ((c : Thread nD τ).loc main_v21) = outOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).1 5).trans (final5 m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ)

end Cert.Swa.K

end
-- ==== Proof.RefProj.lean ====
/-
  The reference's projected features, read at an index.

  The reference multiplies every token by the 1536 rows of the weight array at once, and then cuts the 1536 features of
  a token into band, head and place in the head by a reshape to [4096, 32, 3, 16, 32], a transpose that brings the band
  to the front and the head before the token, and one slice per band. Read at (window b, head h, token n, place d),
  band s of the result is the plain 512-term product of token n of window b with row 512·s + 32·h + d of the weights:
  the row-major position ((((b·32 + n)·3 + s)·16 + h)·32 + d) of the reshape splits back into (b, n, 512·s + 32·h + d).
-/
import proofs.«161077_j13520557047932_1_alg».proof.Proof.Gen.ReferenceIdeal.Read
import proofs.«161077_j13520557047932_1_alg».proof.Proof.Spec

noncomputable section

open scoped BigOperators

namespace Cert.Swa.Ref

open Cert.ReferenceIdeal Cert.ReferenceIdeal.Gen Cert.ReferenceIdeal.Read Idealize.ShloMosaic Idealize.ShloMosaic.ValueIdx

variable (x0 : (⟨S4096x32x512, .f32⟩ : BufTy).Contents (Elt Ideal)) (x1 : (⟨S1536x512, .f32⟩ : BufTy).Contents (Elt Ideal))

/-- The first product at (b, n, o): token n of window b against row o of the weights. -/
theorem v0_at (b : Fin 4096) (n : Fin 32) (o : Fin 1536) :
    val_main_v0 (F := Ideal) x0 x1 (ix3 b n o) = proj x0 x1 b n o := by
  rw [val_main_v0_apply]
  unfold proj
  refine Finset.sum_congr rfl fun c _ => ?_
  have el : lidx_main_v0 (ix3 b n o) c = ix3 b n c :=
    funext fun a => Fin.ext (by match a with | ⟨0, _⟩ => rfl | ⟨1, _⟩ => rfl | ⟨2, _⟩ => rfl)
  have er : ridx_main_v0 (ix3 b n o) c = ix2 o c :=
    funext fun a => Fin.ext (by match a with | ⟨0, _⟩ => rfl | ⟨1, _⟩ => rfl)
  rw [el, er]

/-- Position (b, n, s, h, d) of the five-axis reshape is position (b, n, 512·s + 32·h + d) of the product. -/
theorem idx1_at (b : Fin 4096) (n : Fin 32) (s : Fin 3) (h : Fin 16) (d : Fin 32) :
    idx_main_v1 (ix5 b n s h d) = ix3 b n (col s h d) := by
  have hb := b.isLt; have hn := n.isLt; have hs := s.isLt; have hh := h.isLt; have hd := d.isLt
  funext a; apply Fin.ext
  match a with
  | ⟨0, _⟩ =>
    show ((((b.val * 32 + n.val) * 3 + s.val) * 16 + h.val) * 32 + d.val) / 49152 = b.val
    omega
  | ⟨1, _⟩ =>
    show ((((b.val * 32 + n.val) * 3 + s.val) * 16 + h.val) * 32 + d.val) / 1536 % 32 = n.val
    omega
  | ⟨2, _⟩ =>
    show ((((b.val * 32 + n.val) * 3 + s.val) * 16 + h.val) * 32 + d.val) % 1536 = 512 * s.val + 32 * h.val + d.val
    omega

/-- The transpose reads (s, b, h, n, d) at (b, n, s, h, d). -/
theorem idx2_at (s : Fin 3) (b : Fin 4096) (h : Fin 16) (n d : Fin 32) :
    idx_main_v2 (ix5 s b h n d) = ix5 b n s h d :=
  funext fun a => Fin.ext (by
    match a with | ⟨0, _⟩ => rfl | ⟨1, _⟩ => rfl | ⟨2, _⟩ => rfl | ⟨3, _⟩ => rfl | ⟨4, _⟩ => rfl)

/-- The three slices read band 0, 1 and 2. -/
theorem idx3_at (b : Fin 4096) (h : Fin 16) (n d : Fin 32) :
    idx_main_v3 (ix5 (0 : Fin 1) b h n d) = ix5 (0 : Fin 3) b h n d :=
  funext fun a => Fin.ext (by
    match a with | ⟨0, _⟩ => rfl | ⟨1, _⟩ => rfl | ⟨2, _⟩ => rfl | ⟨3, _⟩ => rfl | ⟨4, _⟩ => rfl)
theorem idx5_at (b : Fin 4096) (h : Fin 16) (n d : Fin 32) :
    idx_main_v5 (ix5 (0 : Fin 1) b h n d) = ix5 (1 : Fin 3) b h n d :=
  funext fun a => Fin.ext (by
    match a with | ⟨0, _⟩ => rfl | ⟨1, _⟩ => rfl | ⟨2, _⟩ => rfl | ⟨3, _⟩ => rfl | ⟨4, _⟩ => rfl)
theorem idx7_at (b : Fin 4096) (h : Fin 16) (n d : Fin 32) :
    idx_main_v7 (ix5 (0 : Fin 1) b h n d) = ix5 (2 : Fin 3) b h n d :=
  funext fun a => Fin.ext (by
    match a with | ⟨0, _⟩ => rfl | ⟨1, _⟩ => rfl | ⟨2, _⟩ => rfl | ⟨3, _⟩ => rfl | ⟨4, _⟩ => rfl)

/-- Dropping the slice's unit axis: position (b, h, n, d) is position (0, b, h, n, d). -/
theorem idx4_at (b : Fin 4096) (h : Fin 16) (n d : Fin 32) :
    idx_main_v4 (ix4 b h n d) = ix5 (0 : Fin 1) b h n d := by
  have hb := b.isLt; have hh := h.isLt; have hn := n.isLt; have hd := d.isLt
  funext a; apply Fin.ext
  match a with
  | ⟨0, _⟩ => rfl
  | ⟨1, _⟩ =>
    show (((b.val * 16 + h.val) * 32 + n.val) * 32 + d.val) / 16384 % 4096 = b.val
    omega
  | ⟨2, _⟩ =>
    show (((b.val * 16 + h.val) * 32 + n.val) * 32 + d.val) / 1024 % 16 = h.val
    omega
  | ⟨3, _⟩ =>
    show (((b.val * 16 + h.val) * 32 + n.val) * 32 + d.val) / 32 % 32 = n.val
    omega
  | ⟨4, _⟩ =>
    show (((b.val * 16 + h.val) * 32 + n.val) * 32 + d.val) % 32 = d.val
    omega
theorem idx6_at (b : Fin 4096) (h : Fin 16) (n d : Fin 32) :
    idx_main_v6 (ix4 b h n d) = ix5 (0 : Fin 1) b h n d := idx4_at b h n d
theorem idx8_at (b : Fin 4096) (h : Fin 16) (n d : Fin 32) :
    idx_main_v8 (ix4 b h n d) = ix5 (0 : Fin 1) b h n d := idx4_at b h n d

/-- The queries: feature d of head h of token n of window b. -/
theorem v4_at (b : Fin 4096) (h : Fin 16) (n d : Fin 32) :
    val_main_v4 (F := Ideal) x0 x1 (ix4 b h n d) = proj x0 x1 b n (col 0 h d) := by
  rw [val_main_v4_apply, val_main_v3_apply, val_main_v2_apply, val_main_v1_apply, idx4_at, idx3_at, idx2_at, idx1_at,
    v0_at]

/-- The keys. -/
theorem v6_at (b : Fin 4096) (h : Fin 16) (n d : Fin 32) :
    val_main_v6 (F := Ideal) x0 x1 (ix4 b h n d) = proj x0 x1 b n (col 1 h d) := by
  rw [val_main_v6_apply, val_main_v5_apply, val_main_v2_apply, val_main_v1_apply, idx6_at, idx5_at, idx2_at, idx1_at,
    v0_at]

/-- The values. -/
theorem v8_at (b : Fin 4096) (h : Fin 16) (n d : Fin 32) :
    val_main_v8 (F := Ideal) x0 x1 (ix4 b h n d) = proj x0 x1 b n (col 2 h d) := by
  rw [val_main_v8_apply, val_main_v7_apply, val_main_v2_apply, val_main_v1_apply, idx8_at, idx7_at, idx2_at, idx1_at,
    v0_at]

end Cert.Swa.Ref

end
-- ==== Proof.RefSoft1.lean ====
/-
  The reference's scores and its first softmax, read at an index.

  In window b and head h the score of token i against token j is the 32-term product of i's query with j's key, times
  the scale word. The softmax over j is written as the program writes it: the row's largest entry (a fold of max over the
  32 positions from the -inf word, compared once more with the -inf word) is subtracted, the differences are
  exponentiated, and each is divided by the sum of the 32 exponentials (a host sum from the zero word, which is 0).
  Every step is read at an index; nothing needs an entry to be finite.
-/
import proofs.«161077_j13520557047932_1_alg».proof.Proof.RefProj

noncomputable section

open scoped BigOperators

namespace Cert.Swa.Ref

open Cert.ReferenceIdeal Cert.ReferenceIdeal.Gen Cert.ReferenceIdeal.Read Idealize.ShloMosaic Idealize.ShloMosaic.ValueIdx

variable (x0 : (⟨S4096x32x512, .f32⟩ : BufTy).Contents (Elt Ideal)) (x1 : (⟨S1536x512, .f32⟩ : BufTy).Contents (Elt Ideal))

/-- The contraction of the score product runs over the place d inside the head. -/
theorem lidx9_at (b : Fin 4096) (h : Fin 16) (i j k : Fin 32) : lidx_main_v9 (ix4 b h i j) k = ix4 b h i k :=
  funext fun a => Fin.ext (by match a with | ⟨0, _⟩ => rfl | ⟨1, _⟩ => rfl | ⟨2, _⟩ => rfl | ⟨3, _⟩ => rfl)
theorem ridx9_at (b : Fin 4096) (h : Fin 16) (i j k : Fin 32) : ridx_main_v9 (ix4 b h i j) k = ix4 b h j k :=
  funext fun a => Fin.ext (by match a with | ⟨0, _⟩ => rfl | ⟨1, _⟩ => rfl | ⟨2, _⟩ => rfl | ⟨3, _⟩ => rfl)

/-- The scaled query–key product. -/
theorem v11_at (b : Fin 4096) (h : Fin 16) (i j : Fin 32) :
    val_main_v11 (F := Ideal) x0 x1 (ix4 b h i j) = score x0 x1 b h i j := by
  rw [val_main_v11_apply, val_main_v9_apply, val_main_v10_apply, val_main_cst_apply]
  unfold score
  simp only [Ideal.mulf_def, Ideal.ofBits_def]
  refine congrArg (· * _) (Finset.sum_congr rfl fun k _ => ?_)
  rw [lidx9_at, ridx9_at, v4_at, v6_at]

/-- A max-reduce over the last axis of a [4096, 16, 32, 32] array, at (b, h, i): the fold of max over the 32 entries of
    row (b, h, i), from the initial value's one element. -/
theorem rowMax_at (y : FVec Ideal S4096x16x32x32 .f32) (init : FVec Ideal S_ .f32) (b : Fin 4096) (h : Fin 16) (i : Fin 32) :
    Host.reduce (FloatOps.maximumf (F := Ideal) (φ := .f32)) y init reducesTo_S4096x16x32x32_S4096x16x32_d3 h_S_ (ix3 b h i)
      = (Finset.univ : Finset (Fin 32)).fold max (init (Shape.Idx.first h_S_)) (fun k => y (ix4 b h i k)) := by
  have hr : S4096x16x32x32.Reduces [3] S4096x16x32 := by decide
  rw [Host.reduce_eq_fold_single (FloatOps.maximumf (F := Ideal) (φ := .f32)) y init reducesTo_S4096x16x32x32_S4096x16x32_d3 hr h_S_]
  exact Finset.fold_congr fun k _ => congrArg y (funext fun a => Fin.ext (by
    match a with | ⟨0, _⟩ => rfl | ⟨1, _⟩ => rfl | ⟨2, _⟩ => rfl | ⟨3, _⟩ => rfl))

/-- The largest score of row (b, h, i), folded from -inf. -/
theorem v12_at (b : Fin 4096) (h : Fin 16) (i : Fin 32) :
    val_main_v12 (F := Ideal) x0 x1 (ix3 b h i)
      = (Finset.univ : Finset (Fin 32)).fold max negInf (fun k => score x0 x1 b h i k) := by
  unfold val_main_v12
  refine (rowMax_at (val_main_v11 (F := Ideal) x0 x1) (val_main_cst_0 (F := Ideal)) b h i).trans ?_
  exact Finset.fold_congr fun k _ => v11_at x0 x1 b h i k

/-- The two broadcasts that spread a row's value over the row read it at the row. -/
theorem idx1516_at (b : Fin 4096) (h : Fin 16) (i k : Fin 32) : idx_main_v15 (idx_main_v16 (ix4 b h i k)) = ix3 b h i :=
  funext fun a => Fin.ext (by match a with | ⟨0, _⟩ => rfl | ⟨1, _⟩ => rfl | ⟨2, _⟩ => rfl)
theorem idx2021_at (b : Fin 4096) (h : Fin 16) (i k : Fin 32) : idx_main_v20 (idx_main_v21 (ix4 b h i k)) = ix3 b h i :=
  funext fun a => Fin.ext (by match a with | ⟨0, _⟩ => rfl | ⟨1, _⟩ => rfl | ⟨2, _⟩ => rfl)
/-- The sum over the last axis at row (b, h, i) runs over the row's 32 entries. -/
theorem idx19_at (b : Fin 4096) (h : Fin 16) (i k : Fin 32) : idx_main_v19 (ix3 b h i) k = ix4 b h i k :=
  funext fun a => Fin.ext (by match a with | ⟨0, _⟩ => rfl | ⟨1, _⟩ => rfl | ⟨2, _⟩ => rfl | ⟨3, _⟩ => rfl)

/-- What is subtracted from row (b, h, i): the row's largest score compared once more with -inf. -/
theorem v16_at (b : Fin 4096) (h : Fin 16) (i k : Fin 32) :
    val_main_v16 (F := Ideal) x0 x1 (ix4 b h i k) = rowTop (fun k' => score x0 x1 b h i k') := by
  rw [val_main_v16_apply, val_main_v15_apply, val_main_v14_apply, val_main_v13_apply, val_main_cst_1_apply, idx1516_at,
    v12_at]
  rfl

/-- The exponential of a score less its row's top. -/
theorem v18_at (b : Fin 4096) (h : Fin 16) (i k : Fin 32) :
    val_main_v18 (F := Ideal) x0 x1 (ix4 b h i k)
      = Ideal.exp (score x0 x1 b h i k - rowTop (fun k' => score x0 x1 b h i k')) := by
  rw [val_main_v18_apply, val_main_v17_apply, v11_at, v16_at]
  rfl

/-- The row's sum of exponentials, spread over the row. -/
theorem v21_at (b : Fin 4096) (h : Fin 16) (i j : Fin 32) :
    val_main_v21 (F := Ideal) x0 x1 (ix4 b h i j)
      = ∑ k : Fin 32, Ideal.exp (score x0 x1 b h i k - rowTop (fun k' => score x0 x1 b h i k')) := by
  rw [val_main_v21_apply, val_main_v20_apply, idx2021_at, val_main_v19_apply, val_main_cst_2_apply, Ideal.ofBits_def,
    Ideal.ofBits_zero_f32, zero_add]
  refine Finset.sum_congr rfl fun k _ => ?_
  rw [idx19_at, v18_at]

/-- The first softmax. -/
theorem v22_at (b : Fin 4096) (h : Fin 16) (i j : Fin 32) :
    val_main_v22 (F := Ideal) x0 x1 (ix4 b h i j) = att1 x0 x1 b h i j := by
  rw [val_main_v22_apply, v18_at, v21_at]
  rfl

end Cert.Swa.Ref

end
-- ==== Proof.RefSoft2.lean ====
/-
  The reference's second softmax, read at an index.

  To the first softmax the reference adds a bias that depends on the head and the two positions only: a [16, 32, 32]
  array (kept closed here: it is whatever the program's table lookup and transpose make of the 63 x 16 table), broadcast
  over the 4096 windows. The sum is put through the same softmax once more: the row's largest entry folded from the -inf
  word and compared with it again, subtracted, exponentiated, divided by the sum of the exponentials.
-/
import proofs.«161077_j13520557047932_1_alg».proof.Proof.RefSoft1

noncomputable section

open scoped BigOperators

namespace Cert.Swa.Ref

open Cert.ReferenceIdeal Cert.ReferenceIdeal.Gen Cert.ReferenceIdeal.Read Idealize.ShloMosaic Idealize.ShloMosaic.ValueIdx

variable (x0 : (⟨S4096x32x512, .f32⟩ : BufTy).Contents (Elt Ideal)) (x1 : (⟨S1536x512, .f32⟩ : BufTy).Contents (Elt Ideal))
variable (x4 : (⟨S63x16, .f32⟩ : BufTy).Contents (Elt Ideal))

/-- The bias is broadcast over the windows: at (b, h, i, j) it is read at (h, i, j). -/
theorem idx3940_at (b : Fin 4096) (h : Fin 16) (i j : Fin 32) : idx_main_v39 (idx_main_v40 (ix4 b h i j)) = ix3 h i j :=
  funext fun a => Fin.ext (by match a with | ⟨0, _⟩ => rfl | ⟨1, _⟩ => rfl | ⟨2, _⟩ => rfl)

/-- The first softmax plus the bias. -/
theorem v41_at (b : Fin 4096) (h : Fin 16) (i j : Fin 32) :
    val_main_v41 (F := Ideal) x0 x1 x4 (ix4 b h i j)
      = att1 x0 x1 b h i j + val_main_v38 (F := Ideal) x4 (ix3 h i j) := by
  rw [val_main_v41_apply, v22_at, val_main_v40_apply, val_main_v39_apply, idx3940_at]
  rfl

/-- The largest entry of row (b, h, i) of that sum, folded from -inf. -/
theorem v42_at (b : Fin 4096) (h : Fin 16) (i : Fin 32) :
    val_main_v42 (F := Ideal) x0 x1 x4 (ix3 b h i)
      = (Finset.univ : Finset (Fin 32)).fold max negInf
          (fun k => att1 x0 x1 b h i k + val_main_v38 (F := Ideal) x4 (ix3 h i k)) := by
  unfold val_main_v42
  refine (rowMax_at (val_main_v41 (F := Ideal) x0 x1 x4) (val_main_cst_5 (F := Ideal)) b h i).trans ?_
  exact Finset.fold_congr fun k _ => v41_at x0 x1 x4 b h i k

theorem idx4546_at (b : Fin 4096) (h : Fin 16) (i k : Fin 32) : idx_main_v45 (idx_main_v46 (ix4 b h i k)) = ix3 b h i :=
  funext fun a => Fin.ext (by match a with | ⟨0, _⟩ => rfl | ⟨1, _⟩ => rfl | ⟨2, _⟩ => rfl)
theorem idx5051_at (b : Fin 4096) (h : Fin 16) (i k : Fin 32) : idx_main_v50 (idx_main_v51 (ix4 b h i k)) = ix3 b h i :=
  funext fun a => Fin.ext (by match a with | ⟨0, _⟩ => rfl | ⟨1, _⟩ => rfl | ⟨2, _⟩ => rfl)
theorem idx49_at (b : Fin 4096) (h : Fin 16) (i k : Fin 32) : idx_main_v49 (ix3 b h i) k = ix4 b h i k :=
  funext fun a => Fin.ext (by match a with | ⟨0, _⟩ => rfl | ⟨1, _⟩ => rfl | ⟨2, _⟩ => rfl | ⟨3, _⟩ => rfl)

/-- What is subtracted from row (b, h, i) the second time. -/
theorem v46_at (b : Fin 4096) (h : Fin 16) (i k : Fin 32) :
    val_main_v46 (F := Ideal) x0 x1 x4 (ix4 b h i k)
      = rowTop (fun k' => att1 x0 x1 b h i k' + val_main_v38 (F := Ideal) x4 (ix3 h i k')) := by
  rw [val_main_v46_apply, val_main_v45_apply, val_main_v44_apply, val_main_v43_apply, val_main_cst_6_apply, idx4546_at,
    v42_at]
  rfl

/-- The exponential of an entry less its row's top. -/
theorem v48_at (b : Fin 4096) (h : Fin 16) (i k : Fin 32) :
    val_main_v48 (F := Ideal) x0 x1 x4 (ix4 b h i k)
      = Ideal.exp ((att1 x0 x1 b h i k + val_main_v38 (F := Ideal) x4 (ix3 h i k))
          - rowTop (fun k' => att1 x0 x1 b h i k' + val_main_v38 (F := Ideal) x4 (ix3 h i k'))) := by
  rw [val_main_v48_apply, val_main_v47_apply, v41_at, v46_at]
  rfl

/-- The row's sum of exponentials, spread over the row. -/
theorem v51_at (b : Fin 4096) (h : Fin 16) (i j : Fin 32) :
    val_main_v51 (F := Ideal) x0 x1 x4 (ix4 b h i j)
      = ∑ k : Fin 32, Ideal.exp ((att1 x0 x1 b h i k + val_main_v38 (F := Ideal) x4 (ix3 h i k))
          - rowTop (fun k' => att1 x0 x1 b h i k' + val_main_v38 (F := Ideal) x4 (ix3 h i k'))) := by
  rw [val_main_v51_apply, val_main_v50_apply, idx5051_at, val_main_v49_apply, val_main_cst_7_apply, Ideal.ofBits_def,
    Ideal.ofBits_zero_f32, zero_add]
  refine Finset.sum_congr rfl fun k _ => ?_
  rw [idx49_at, v48_at]

/-- The second softmax. -/
theorem v52_at (b : Fin 4096) (h : Fin 16) (i j : Fin 32) :
    val_main_v52 (F := Ideal) x0 x1 x4 (ix4 b h i j) = att2 x0 x1 (val_main_v38 (F := Ideal) x4) b h i j := by
  rw [val_main_v52_apply, v48_at, v51_at]
  rfl

end Cert.Swa.Ref

end
-- ==== Proof.RefIsSpec.lean ====
/-
  The reference computes the layer's specification.

  The last stages: the second softmax weights the values (a 32-term sum over the tokens j, per window, head and place);
  a transpose and a reshape put the 16 heads' 32 places side by side, so that feature c of the 512 is place c % 32 of head
  c / 32; the 512 features are multiplied against a row of the output weights and the bias row is added. Together with
  the stages read before, the reference's result at every index is the specification's value there, with the
  [16, 32, 32] positional bias the program builds from its table kept as it stands.
-/
import proofs.«161077_j13520557047932_1_alg».proof.Proof.RefSoft2

noncomputable section

open scoped BigOperators

namespace Cert.Swa.Ref

open Cert.ReferenceIdeal Cert.ReferenceIdeal.Gen Cert.ReferenceIdeal.Read Idealize.ShloMosaic Idealize.ShloMosaic.ValueIdx

variable (x0 : (⟨S4096x32x512, .f32⟩ : BufTy).Contents (Elt Ideal)) (x1 : (⟨S1536x512, .f32⟩ : BufTy).Contents (Elt Ideal))
variable (x2 : (⟨S512x512, .f32⟩ : BufTy).Contents (Elt Ideal)) (x3 : (⟨S512, .f32⟩ : BufTy).Contents (Elt Ideal))
variable (x4 : (⟨S63x16, .f32⟩ : BufTy).Contents (Elt Ideal))

/-- The contraction of the weighting runs over the token j: the weights at (b, h, i, j), the values at (b, h, j, d). -/
theorem lidx53_at (b : Fin 4096) (h : Fin 16) (i d k : Fin 32) : lidx_main_v53 (ix4 b h i d) k = ix4 b h i k :=
  funext fun a => Fin.ext (by match a with | ⟨0, _⟩ => rfl | ⟨1, _⟩ => rfl | ⟨2, _⟩ => rfl | ⟨3, _⟩ => rfl)
theorem ridx53_at (b : Fin 4096) (h : Fin 16) (i d k : Fin 32) : ridx_main_v53 (ix4 b h i d) k = ix4 b h k d :=
  funext fun a => Fin.ext (by match a with | ⟨0, _⟩ => rfl | ⟨1, _⟩ => rfl | ⟨2, _⟩ => rfl | ⟨3, _⟩ => rfl)

/-- A head's output: the values weighted by the second softmax. -/
theorem v53_at (b : Fin 4096) (h : Fin 16) (i d : Fin 32) :
    val_main_v53 (F := Ideal) x0 x1 x4 (ix4 b h i d) = headOut x0 x1 (val_main_v38 (F := Ideal) x4) b h i d := by
  rw [val_main_v53_apply]
  unfold headOut
  refine Finset.sum_congr rfl fun k _ => ?_
  rw [lidx53_at, ridx53_at, v52_at, v8_at]

/-- The transpose puts the token before the head. -/
theorem idx54_at (b : Fin 4096) (n : Fin 32) (h : Fin 16) (d : Fin 32) : idx_main_v54 (ix4 b n h d) = ix4 b h n d :=
  funext fun a => Fin.ext (by match a with | ⟨0, _⟩ => rfl | ⟨1, _⟩ => rfl | ⟨2, _⟩ => rfl | ⟨3, _⟩ => rfl)

/-- Feature c of the 512 is place c % 32 of head c / 32. -/
theorem idx55_at (b : Fin 4096) (n : Fin 32) (c : Fin 512) :
    idx_main_v55 (ix3 b n c) = ix4 b n (headOf c) (featOf c) := by
  have hb := b.isLt; have hn := n.isLt; have hc := c.isLt
  funext a; apply Fin.ext
  match a with
  | ⟨0, _⟩ =>
    show ((b.val * 32 + n.val) * 512 + c.val) / 16384 = b.val
    omega
  | ⟨1, _⟩ =>
    show ((b.val * 32 + n.val) * 512 + c.val) / 512 % 32 = n.val
    omega
  | ⟨2, _⟩ =>
    show ((b.val * 32 + n.val) * 512 + c.val) / 32 % 16 = c.val / 32
    omega
  | ⟨3, _⟩ =>
    show ((b.val * 32 + n.val) * 512 + c.val) % 32 = c.val % 32
    omega

/-- The heads side by side. -/
theorem v55_at (b : Fin 4096) (n : Fin 32) (c : Fin 512) :
    val_main_v55 (F := Ideal) x0 x1 x4 (ix3 b n c)
      = headOut x0 x1 (val_main_v38 (F := Ideal) x4) b (headOf c) n (featOf c) := by
  rw [val_main_v55_apply, val_main_v54_apply, idx55_at, idx54_at, v53_at]

/-- The last product contracts the 512 features against row o of the output weights. -/
theorem lidx56_at (b : Fin 4096) (n : Fin 32) (o c : Fin 512) : lidx_main_v56 (ix3 b n o) c = ix3 b n c :=
  funext fun a => Fin.ext (by match a with | ⟨0, _⟩ => rfl | ⟨1, _⟩ => rfl | ⟨2, _⟩ => rfl)
theorem ridx56_at (b : Fin 4096) (n : Fin 32) (o c : Fin 512) : ridx_main_v56 (ix3 b n o) c = ix2 o c :=
  funext fun a => Fin.ext (by match a with | ⟨0, _⟩ => rfl | ⟨1, _⟩ => rfl)
/-- The bias row is broadcast over windows and tokens. -/
theorem idx5758_at (b : Fin 4096) (n : Fin 32) (o : Fin 512) : idx_main_v57 (idx_main_v58 (ix3 b n o)) = ix1 o :=
  funext fun a => Fin.ext (by match a with | ⟨0, _⟩ => rfl)

/-- The specification at (b, n, o), with the index's coordinates named. -/
theorem G_at (bias : (⟨3, ![16, 32, 32]⟩ : Shape).Idx → EReal) (b : Fin 4096) (n : Fin 32) (o : Fin 512) :
    G x0 x1 x2 x3 bias (ix3 b n o)
      = (∑ c : Fin 512, headOut x0 x1 bias b (headOf c) n (featOf c) * x2 (ix2 o c)) + x3 (ix1 o) := rfl

/-- THE REFERENCE IS THE SPECIFICATION: its last stage, as a function of the argument arrays, is the layer's output
    with the positional bias the program builds from its table. -/
theorem ref_eq :
    val_main_v59 (F := Ideal) x0 x1 x2 x3 x4 = G x0 x1 x2 x3 (val_main_v38 (F := Ideal) x4) := by
  funext i
  obtain ⟨b, n, o, rfl⟩ : ∃ (b : Fin 4096) (n : Fin 32) (o : Fin 512), i = ix3 b n o := ⟨i 0, i 1, i 2, eq_ix3 i⟩
  rw [G_at, val_main_v59_apply, val_main_v56_apply, val_main_v58_apply, val_main_v57_apply, idx5758_at, Ideal.addf_def]
  refine congrArg (· + _) (Finset.sum_congr rfl fun c _ => ?_)
  rw [lidx56_at, ridx56_at, v55_at]

end Cert.Swa.Ref

end
-- ==== Proof.lean ====
/-
  One attention layer over windows of 32 tokens, as a fused kernel and as the plain reference: equal, entry by entry,
  on the extended reals.

  The layer: 4096 windows of 32 tokens with 512 features. Each token is projected to 1536 features — its queries, keys
  and values for 16 heads of width 32. Within a window and a head, the scaled products of a token's query with the 32
  keys are put through a softmax; a bias that depends only on the head and the two positions (looked up in a 63 x 16
  table by the difference of the positions) is added; the sum is put through a softmax again; the result weights the
  32 values. The 16 heads' outputs, side by side, are projected back to 512 features and a bias row is added.

  The kernel does this for 32 windows per grid point, with the weights transposed on the host beforehand and its 16
  heads written out one after the other; the reference does it for all windows at once, the heads as an axis of its
  arrays. Read exactly, a change of float format is the identity and every matrix product is a finite sum of products,
  so both programs compute, entry by entry, the SAME finite sums and the SAME two softmaxes written the same way (the
  largest entry from -inf and compared with -inf once more, subtracted, exponentiated, divided by the sum), with the
  same two float words (the scale and -inf). No step needs an entry to be finite, and none is evaluated: the proof is
  reading each operation at an index and re-indexing sums.

  `Spec.lean` states the layer's output as one function `Cert.Swa.G` of the four argument arrays and of the positional
  bias array. The kernel side: `KHead` (one head, with its number as a parameter), `KDots` (the four matrix products at
  an index), `KHeadAt` (a head at an index), `KHeads` (the body's 16 printed heads are that one head), `KBody` /
  `KBlock` (a block the body leaves is a block of `G`), `KHost` (what the host operations leave in the staged arrays),
  `KFinal` (the blocks fill the array; the run). The reference side: `RefProj`, `RefSoft1`, `RefSoft2`, `RefIsSpec`
  (its last stage is `G`). Both programs build the positional bias from the table by the same operations, so that
  array is one term on both sides and the table lookup is never opened.
-/
import proofs.«161077_j13520557047932_1_alg».proof.Defs
import proofs.«161077_j13520557047932_1_alg».proof.Proof.Gen.Kernel
import proofs.«161077_j13520557047932_1_alg».proof.Proof.Gen.Kernel.Skeleton
import proofs.«161077_j13520557047932_1_alg».proof.Proof.Gen.Kernel.Launch
import proofs.«161077_j13520557047932_1_alg».proof.Proof.Gen.Kernel.Points
import proofs.«161077_j13520557047932_1_alg».proof.Proof.Gen.Kernel.Frame
import proofs.«161077_j13520557047932_1_alg».proof.Proof.Gen.KernelIdeal
import proofs.«161077_j13520557047932_1_alg».proof.Proof.Gen.KernelIdeal.Skeleton
import proofs.«161077_j13520557047932_1_alg».proof.Proof.Gen.KernelIdeal.Launch
import proofs.«161077_j13520557047932_1_alg».proof.Proof.Gen.KernelIdeal.Points
import proofs.«161077_j13520557047932_1_alg».proof.Proof.Gen.KernelIdeal.Frame
import proofs.«161077_j13520557047932_1_alg».proof.Proof.Gen.ReferenceIdeal
import proofs.«161077_j13520557047932_1_alg».proof.Proof.Gen.Pre_finite_inputs
import proofs.«161077_j13520557047932_1_alg».proof.Proof.Gen.ReferenceIdeal.Run
import proofs.«161077_j13520557047932_1_alg».proof.Proof.Gen.ReferenceIdeal.Read
import proofs.«161077_j13520557047932_1_alg».proof.Proof.KFinal
import proofs.«161077_j13520557047932_1_alg».proof.Proof.RefIsSpec
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- The exactly-read kernel runs and keeps its arguments. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing of the kernel was rewritten to read it exactly. -/
theorem preserves : Cert.preserves_Kernel_KernelIdeal := trivial

/-- From memories that agree on the five arguments the kernel's output array and the reference's result are both the
    layer's output of those arguments: the kernel's by its blocks, the reference's operation by operation, and the
    positional bias each builds from the table is the same array. -/
theorem algebraic : Cert.algebraic_KernelIdeal_ReferenceIdeal := by
  intro m ρ m' ρ' _ hagree
  refine ⟨fun c => Cert.Swa.K.outOf m c, Cert.Swa.K.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v59_eq, Cert.Swa.Ref.ref_eq, (hagree c).1, (hagree c).2.1, (hagree c).2.2.1,
    (hagree c).2.2.2.1, (hagree c).2.2.2.2]
  exact congrArg (Cert.Swa.G _ _ _ _) (Cert.Swa.KHost.posBias_eq m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
